-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128x40 .f32) (main_arg6 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x40 .f32 := Host.absf main_arg5
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x256 .f32) (main_arg1 : IVec S2x1600000 32) (main_arg2 : FVec F S1600000 .f32) (main_arg3 : FVec F S256x128 .f32) (main_arg4 : FVec F S128 .f32) (main_arg5 : FVec F S128x40 .f32) (main_arg6 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x256 : Shape := ⟨2, ![100000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S10000x256 : Shape := ⟨2, ![10000, 256]⟩
abbrev S10000x128 : Shape := ⟨2, ![10000, 128]⟩
abbrev S1700000x128 : Shape := ⟨2, ![1700000, 128]⟩
abbrev S1x128 : Shape := ⟨2, ![1, 128]⟩
abbrev S100000x40 : Shape := ⟨2, ![100000, 40]⟩
abbrev S10000x40 : Shape := ⟨2, ![10000, 40]⟩
abbrev S1700000x40 : Shape := ⟨2, ![1700000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 85
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .f32⟩
  | .hbm, ⟨3, _⟩ => ⟨S256x128, .f32⟩
  | .hbm, ⟨4, _⟩ => ⟨S128, .f32⟩
  | .hbm, ⟨5, _⟩ => ⟨S128x40, .f32⟩
  | .hbm, ⟨6, _⟩ => ⟨S40, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S100000x128, .f32⟩
  | .hbm, ⟨67, _⟩ => ⟨S100000x40, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x40, .f32⟩
  | .hbm, ⟨77, _⟩ => ⟨S1700000x1, .f32⟩
  | .hbm, ⟨78, _⟩ => ⟨S1700000x40, .f32⟩
  | .hbm, ⟨79, _⟩ => ⟨S1700000x40, .f32⟩
  | .hbm, ⟨80, _⟩ => ⟨S_, .f32⟩
  | .hbm, ⟨81, _⟩ => ⟨S100000x40, .f32⟩
  | .hbm, ⟨82, _⟩ => ⟨S1700000x1, .i32⟩
  | .hbm, ⟨83, _⟩ => ⟨S100000x40, .f32⟩
  | .hbm, ⟨84, _⟩ => ⟨S100000x40, .f32⟩
  | .local _ .vmem, ⟨0, _⟩ => ⟨S10000x256, .f32⟩
  | .local _ .vmem, ⟨1, _⟩ => ⟨S10000x256, .f32⟩
  | .local _ .vmem, ⟨2, _⟩ => ⟨S256x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x40, .f32⟩
  | .local _ .vmem, ⟨13, _⟩ => ⟨S10000x40, .f32⟩
  | .local _ .vmem, ⟨14, _⟩ => ⟨S10000x40, .f32⟩
  | .local _ .vmem, ⟨15, _⟩ => ⟨S10000x40, .f32⟩
  | .local _ .vmem, ⟨16, _⟩ => ⟨S10000x40, .f32⟩
  | .local _ .vmem, ⟨17, _⟩ => ⟨S40, .f32⟩
  | .local _ .vmem, ⟨18, _⟩ => ⟨S10000x40, .f32⟩
  | .local _ .vmem, ⟨19, _⟩ => ⟨S10000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S10000x128_S10000x128_0_0 : ∀ a, (![0, 0] : Fin 2 → Nat) a + S10000x128.size a ≤ S10000x128.size a
  h_S10000x128 : 0 < S10000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S10000x128_S10000x128 : S10000x128.ShapeCasts S10000x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S128x40_S128x40_0_0 : ∀ a, (![0, 0] : Fin 2 → Nat) a + S128x40.size a ≤ S128x40.size a
  h_S128x40 : 0 < S128x40.numel
  inb_S10000x40_S10000x40_0_0 : ∀ a, (![0, 0] : Fin 2 → Nat) a + S10000x40.size a ≤ S10000x40.size a
  h_S10000x40 : 0 < S10000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S10000x40_S10000x40 : S10000x40.ShapeCasts S10000x40
  inb_S40_S40_0 : ∀ a, (![0] : Fin 1 → Nat) a + S40.size a ≤ S40.size a
  h_S40 : 0 < S40.numel
  shapeCasts_S40_S1x40 : S40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x256_S256x128_S10000x128_1_0_0_1_n_n_wf : DotDims.WF S10000x256 S256x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x40_S10000x40_1_0_0_1_n_n_wf : DotDims.WF S10000x128 S128x40 S10000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x40.size a ≤ S100000x40.size a
  hwx2_2 : ∀ i : grid2.Coords, EltTy.bits .f32 = 32 ∨ (Rect.block (s := S100000x40) S10000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x40.size a ≤ S100000x40.size a
  hwx3_0 : ∀ i : grid3.Coords, EltTy.bits .f32 = 32 ∨ (Rect.block (s := S100000x40) S10000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S40.size a ≤ S40.size a
  hwx3_1 : ∀ i : grid3.Coords, EltTy.bits .f32 = 32 ∨ (Rect.block (s := S40) S40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x40.size a ≤ S100000x40.size a
  hwx3_2 : ∀ i : grid3.Coords, EltTy.bits .f32 = 32 ∨ (Rect.block (s := S100000x40) S10000x40.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S10000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S10000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .f32⟩
  | .hbm, ⟨3, _⟩ => ⟨S256x128, .f32⟩
  | .hbm, ⟨4, _⟩ => ⟨S128, .f32⟩
  | .hbm, ⟨5, _⟩ => ⟨S128x40, .f32⟩
  | .hbm, ⟨6, _⟩ => ⟨S40, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x40, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x40, .f32⟩
  | .hbm, ⟨82, _⟩ => ⟨S1700000x1, .f32⟩
  | .hbm, ⟨83, _⟩ => ⟨S1700000x40, .f32⟩
  | .hbm, ⟨84, _⟩ => ⟨S1700000x40, .f32⟩
  | .hbm, ⟨85, _⟩ => ⟨S_, .f32⟩
  | .hbm, ⟨86, _⟩ => ⟨S100000x40, .f32⟩
  | .hbm, ⟨87, _⟩ => ⟨S1700000x1, .i32⟩
  | .hbm, ⟨88, _⟩ => ⟨S100000x40, .f32⟩
  | .hbm, ⟨89, _⟩ => ⟨S1x40, .f32⟩
  | .hbm, ⟨90, _⟩ => ⟨S100000x40, .f32⟩
  | .hbm, ⟨91, _⟩ => ⟨S100000x40, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x40, .f32⟩
  | .hbm, ⟨99, _⟩ => ⟨S100000x40, .f32⟩
  | .hbm, ⟨100, _⟩ => ⟨S100000x40, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x40, .f32⟩
  | .hbm, ⟨106, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KernelRun.lean ====
/-
  The idealized kernel's run, with its result named.

  @main is nine segments in a row: three stretches of host operations (the self-loops, the degrees and the symmetric
  edge weights), the first dense product, a stretch (the first gather and scatter-add), the bias-and-rectifier kernel,
  the second dense product, a stretch (the second gather and scatter-add), and the bias-and-log-softmax kernel. Write
  W0 for the buffer contents at launch and W1 … W9 for the contents after each segment in turn: a host stretch applies
  its operations to the contents it finds, and a kernel leaves in each of its arrays what its grid points wrote back and
  every other buffer as it found it. Every weakly fair execution of @main terminates, nothing faulting, in a state
  whose unscoped buffers hold W9; in particular the result array holds W9's contents for it, and the seven argument
  arrays hold what they held at launch. What W9 holds at the result array, as a function of the arguments, is the
  business of the other modules.
-/
import proofs.«170599_j18631568130050_1_alg».proof.Proof.Gen.KernelIdeal.Frame

set_option maxRecDepth 16384

noncomputable section

namespace Cert.GcnValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the seven argument arrays as launched. -/
theorem run_result : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.GcnValue

end
-- ==== Proof.Stages.lean ====
/-
  The two-layer graph convolution, as pure functions of whole arrays at the extended reals.

  The graph has N = 100000 nodes and E = 1600000 weighted edges, given as a 2 × E table of node numbers (row 0 the
  sources, row 1 the targets) and a vector of E weights. One self-loop of weight 1 is added per node, so every list
  below has E + N = 1700000 entries.

  * 'sources', 'targets', 'weights': the two rows of the table and the weight vector, each followed by its N self-loop
    entries (node n, node n, weight 1).
  * 'degree': node v's degree is the sum of the weights of the entries whose target is v (a scatter-add into zeros).
  * 'invSqrtDegree': 1/sqrt(degree) where the degree is positive, 0 elsewhere.
  * 'wrapped': a list of node numbers made a column of gather indices, a negative number first moved up by N.
  * 'edgeNorm': entry e gets invSqrtDegree(source e) · weight e · invSqrtDegree(target e).
  * 'aggregate128', 'aggregate40': row v of the result is the sum, over the entries e whose target is v, of row
    (source e) of the operand times edgeNorm e (a gather, a product with the norm broadcast along the row, a scatter-add
    into zeros).
  * 'dense1', 'dense2': the two matrix products; 'biasRelu': one bias row added to every row, then the maximum with 0;
    'biasLogSoftmax': one bias row added to every row, then each row minus its maximum, minus the logarithm of the sum
    of the exponentials of those differences.
  * 'gcn': log-softmax-layer(aggregate(dense2(relu-layer(aggregate(dense1 x))))).

  Each is spelt with the host's own operations on whole arrays, so that a stretch of host operations, read back from
  the contents it was run from, is one of these functions of those contents by unfolding alone.
-/
import proofs.«170599_j18631568130050_1_alg».proof.Proof.Gen.ReferenceIdeal
import Idealize.ShloMosaic.PureOps.Ideal

noncomputable section

namespace Cert.GcnValue

open Idealize.ShloMosaic Cert.ReferenceIdeal Cert.ReferenceIdeal.Facts₀

/-- The sources of the E edges, then node n for the n-th self-loop. -/
def sources (ei : IVec S2x1600000 32) : IVec S1700000 32 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The targets of the E edges, then node n for the n-th self-loop. -/
def targets (ei : IVec S2x1600000 32) : IVec S1700000 32 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- The weights of the E edges, then 1 for each self-loop. -/
def weights (ea : FVec Ideal S1600000 .f32) : FVec Ideal S1700000 .f32 :=
  concatenate S1700000 0 [⟨S1600000, ea⟩, ⟨S100000, (broadcastInDim S100000 ![] bcast_S_S100000 (constant (F := Ideal) S_ .f32 0x3F800000#32))⟩] concatenates_S1600000_S100000_S1700000_d0

/-- A node's degree: the sum of the weights of the entries that end at it. -/
def degree (ei : IVec S2x1600000 32) (ea : FVec Ideal S1600000 .f32) : FVec Ideal S100000 .f32 :=
  Host.scatterAdd (F := Ideal) scatter_S100000_S1700000x1_S1700000_n_0_0_1 (broadcastInDim S100000 ![] bcast_S_S100000 (constant (F := Ideal) S_ .f32 0x00000000#32))
    (broadcastInDim S1700000x1 ![0] bcast_S1700000_S1700000x1_0 (targets ei)) (weights ea)

/-- 1/sqrt(degree) where the degree is positive, 0 elsewhere. -/
def invSqrtDegree (ei : IVec S2x1600000 32) (ea : FVec Ideal S1600000 .f32) : FVec Ideal S100000 .f32 :=
  select (cmpf .ogt (degree ei ea) (broadcastInDim S100000 ![] bcast_S_S100000 (constant (F := Ideal) S_ .f32 0x00000000#32)))
    (Host.rsqrt (F := Ideal) (degree ei ea)) (broadcastInDim S100000 ![] bcast_S_S100000 (id (constant (F := Ideal) S_ .f32 0x00000000#32)))

/-- Node numbers as a column of gather indices, a negative one first moved up by N. -/
def wrapped (r : IVec S1700000 32) : IVec S1700000x1 32 :=
  broadcastInDim S1700000x1 ![0] bcast_S1700000_S1700000x1_0
    (select (cmpi .slt r (broadcastInDim S1700000 ![] bcast_S_S1700000 (constantI S_ 32 0#32)))
      (addi r (broadcastInDim S1700000 ![] bcast_S_S1700000 (constantI S_ 32 100000#32))) r)

/-- Entry e's symmetric weight: invSqrtDegree(source e) · weight e · invSqrtDegree(target e). -/
def edgeNorm (ei : IVec S2x1600000 32) (ea : FVec Ideal S1600000 .f32) : FVec Ideal S1700000 .f32 :=
  mulf (mulf (Host.gather gather_S100000_S1700000x1_S1700000_n_0_n_n_0_1_1 (invSqrtDegree ei ea) (wrapped (sources ei))) (weights ea))
    (Host.gather gather_S100000_S1700000x1_S1700000_n_0_n_n_0_1_1 (invSqrtDegree ei ea) (wrapped (targets ei)))

/-- Row v of the result: the sum over the entries e that end at v of row (source e) of 'h' times 'nrm e'. -/
def aggregate128 (h : FVec Ideal S100000x128 .f32) (src tgt : IVec S1700000 32) (nrm : FVec Ideal S1700000 .f32) : FVec Ideal S100000x128 .f32 :=
  Host.scatterAdd (F := Ideal) scatter_S100000x128_S1700000x1_S1700000x128_1_0_0_1 (broadcastInDim S100000x128 ![] bcast_S_S100000x128 (constant (F := Ideal) S_ .f32 0x00000000#32))
    (broadcastInDim S1700000x1 ![0] bcast_S1700000_S1700000x1_0 tgt)
    (mulf (Host.gather gather_S100000x128_S1700000x1_S1700000x128_1_0_n_n_0_1_1128 h (wrapped src))
      (broadcastInDim S1700000x128 ![0, 1] bcast_S1700000x1_S1700000x128_0_1 (broadcastInDim S1700000x1 ![0] bcast_S1700000_S1700000x1_0 nrm)))

/-- The same aggregation on 40 columns. -/
def aggregate40 (h : FVec Ideal S100000x40 .f32) (src tgt : IVec S1700000 32) (nrm : FVec Ideal S1700000 .f32) : FVec Ideal S100000x40 .f32 :=
  Host.scatterAdd (F := Ideal) scatter_S100000x40_S1700000x1_S1700000x40_1_0_0_1 (broadcastInDim S100000x40 ![] bcast_S_S100000x40 (constant (F := Ideal) S_ .f32 0x00000000#32))
    (broadcastInDim S1700000x1 ![0] bcast_S1700000_S1700000x1_0 tgt)
    (mulf (Host.gather gather_S100000x40_S1700000x1_S1700000x40_1_0_n_n_0_1_140 h (wrapped src))
      (broadcastInDim S1700000x40 ![0, 1] bcast_S1700000x1_S1700000x40_0_1 (broadcastInDim S1700000x1 ![0] bcast_S1700000_S1700000x1_0 nrm)))

/-- The first dense product, [N, 256] by [256, 128]. -/
def dense1 (x : FVec Ideal S100000x256 .f32) (w : FVec Ideal S256x128 .f32) : FVec Ideal S100000x128 .f32 :=
  Host.dotGeneral (F := Ideal) dot_S100000x256_S256x128_S100000x128_1_0_0_1_n_n none x w

/-- The second dense product, [N, 128] by [128, 40]. -/
def dense2 (x : FVec Ideal S100000x128 .f32) (w : FVec Ideal S128x40 .f32) : FVec Ideal S100000x40 .f32 :=
  Host.dotGeneral (F := Ideal) dot_S100000x128_S128x40_S100000x40_1_0_0_1_n_n none x w

/-- One bias row added to every row, then the maximum with 0. -/
def biasRelu (a : FVec Ideal S100000x128 .f32) (b : FVec Ideal S128 .f32) : FVec Ideal S100000x128 .f32 :=
  maximumf (addf a (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))

/-- One bias row added to every row. -/
def biased40 (a : FVec Ideal S100000x40 .f32) (b : FVec Ideal S40 .f32) : FVec Ideal S100000x40 .f32 :=
  addf a (broadcastInDim S100000x40 ![0, 1] bcast_S1x40_S100000x40_0_1 (broadcastInDim S1x40 ![1] bcast_S40_S1x40_1 b))

/-- Each row minus its maximum. -/
def shifted40 (v : FVec Ideal S100000x40 .f32) : FVec Ideal S100000x40 .f32 :=
  subf v (broadcastInDim S100000x40 ![0, 1] bcast_S100000x1_S100000x40_0_1 (broadcastInDim S100000x1 ![0] bcast_S100000_S100000x1_0
    (maximumf (broadcastInDim S100000 ![] bcast_S_S100000 (constant (F := Ideal) S_ .f32 0xFF800000#32))
      (Host.reduce (FloatOps.maximumf (F := Ideal)) v (constant (F := Ideal) S_ .f32 0xFF800000#32) reducesTo_S100000x40_S100000_d1 h_S_))))

/-- A matrix minus, in each row, the logarithm of the sum of the row's exponentials. -/
def minusLogSumExp (s : FVec Ideal S100000x40 .f32) : FVec Ideal S100000x40 .f32 :=
  subf s (broadcastInDim S100000x40 ![0, 1] bcast_S100000x1_S100000x40_0_1 (Host.log (F := Ideal) (broadcastInDim S100000x1 ![0] bcast_S100000_S100000x1_0
    (Host.reduceAdd (F := Ideal) (Host.exp (F := Ideal) s) (constant (F := Ideal) S_ .f32 0x00000000#32) reducesTo_S100000x40_S100000_d1 h_S_))))

/-- The bias row added, then the row-wise log-softmax. -/
def biasLogSoftmax (a : FVec Ideal S100000x40 .f32) (b : FVec Ideal S40 .f32) : FVec Ideal S100000x40 .f32 :=
  minusLogSumExp (shifted40 (biased40 a b))

/-- The whole network, from the seven arguments. -/
def gcn (x : FVec Ideal S100000x256 .f32) (ei : IVec S2x1600000 32) (ea : FVec Ideal S1600000 .f32) (w1 : FVec Ideal S256x128 .f32) (b1 : FVec Ideal S128 .f32)
    (w2 : FVec Ideal S128x40 .f32) (b2 : FVec Ideal S40 .f32) : FVec Ideal S100000x40 .f32 :=
  biasLogSoftmax (aggregate40 (dense2 (biasRelu (aggregate128 (dense1 x w1) (sources ei) (targets ei) (edgeNorm ei ea)) b1) w2)
    (sources ei) (targets ei) (edgeNorm ei ea)) b2

end Cert.GcnValue

end
-- ==== Proof.KernelHostNormLists.lean ====
/-
  The idealized kernel's first stretch of host operations, one printed list at a time.

  The stretch is printed as three lists: the two lists of node numbers with the self-loops appended, the weights with a 1
  per self-loop, the degrees (a scatter-add of the weights at the targets), where they are positive and their inverse
  square roots; then the outlined select between the inverse square root and 0; then, per entry, the product of the
  select at the source, the weight and the select at the target. Each list is read from whatever contents it starts
  from, and the buffers it does not write are noted.
-/
import proofs.«170599_j18631568130050_1_alg».proof.Proof.Gen.KernelIdeal.Launch
import proofs.«170599_j18631568130050_1_alg».proof.Proof.Stages
import Idealize.ShloMosaic.Lib.StableHlo.Run

set_option maxRecDepth 16384

noncomputable section

namespace Cert.GcnValue.KernelHost

open Cert.KernelIdeal Cert.KernelIdeal.Gen
open Idealize.ShloMosaic Idealize.ShloMosaic.TcCoe Idealize.ShloMosaic.StableHlo Idealize.SL.Sem

/-- Reads a stretch of host operations at one buffer: each operation's result at its own buffer is its function of its
    operands, any other buffer is left as it was; the casts an outlined function's typed references insert are
    identities. -/
local macro "read_stretch" : tactic =>
  `(tactic| (after_results_simp; (try simp only [TRef.toBuf, TRef.ofBuf, cast_eq]); (try rfl)))

variable (W : Valuation τ sig (Elt Ideal))

/-! ## The first list: the lists with their self-loops, the weights, the degrees -/

/-- The sources, the self-loops appended. -/
theorem selfloops_sources : (after (hostOps0 (F := Ideal)) W (Proc.devRef .tc main_v5) : IVec S1700000 32) = sources (W (Proc.devRef .tc main_arg1)) := by
  dsimp only [hostOps0]
  read_stretch

/-- The targets, the self-loops appended. -/
theorem selfloops_targets : (after (hostOps0 (F := Ideal)) W (Proc.devRef .tc main_v6) : IVec S1700000 32) = targets (W (Proc.devRef .tc main_arg1)) := by
  dsimp only [hostOps0]
  read_stretch

/-- The weights, a 1 appended per self-loop. -/
theorem selfloops_weights : (after (hostOps0 (F := Ideal)) W (Proc.devRef .tc main_v8) : FVec Ideal S1700000 .f32) = weights (W (Proc.devRef .tc main_arg2)) := by
  dsimp only [hostOps0]
  read_stretch

/-- Where the degree is positive. -/
theorem degree_positive : (after (hostOps0 (F := Ideal)) W (Proc.devRef .tc main_v13) : IVec S100000 1) = cmpf .ogt (degree (W (Proc.devRef .tc main_arg1)) (W (Proc.devRef .tc main_arg2))) (broadcastInDim S100000 ![] Cert.ReferenceIdeal.Facts₀.bcast_S_S100000 (constant (F := Ideal) S_ .f32 0x00000000#32)) := by
  dsimp only [hostOps0]
  read_stretch

/-- One over the square root of the degree. -/
theorem degree_rsqrt : (after (hostOps0 (F := Ideal)) W (Proc.devRef .tc main_v14) : FVec Ideal S100000 .f32) = Host.rsqrt (F := Ideal) (degree (W (Proc.devRef .tc main_arg1)) (W (Proc.devRef .tc main_arg2))) := by
  dsimp only [hostOps0]
  read_stretch

/-- The scalar 0 the select falls back to. -/
theorem zero_scalar : (after (hostOps0 (F := Ideal)) W (Proc.devRef .tc main_cst_2) : FVec Ideal S_ .f32) = constant (F := Ideal) S_ .f32 0x00000000#32 := by
  dsimp only [hostOps0]
  read_stretch

theorem selfloops_keeps_main_arg0 : (after (hostOps0 (F := Ideal)) W (Proc.devRef .tc main_arg0) : FVec Ideal S100000x256 .f32) = W (Proc.devRef .tc main_arg0) := by
  dsimp only [hostOps0]
  read_stretch

theorem selfloops_keeps_main_arg3 : (after (hostOps0 (F := Ideal)) W (Proc.devRef .tc main_arg3) : FVec Ideal S256x128 .f32) = W (Proc.devRef .tc main_arg3) := by
  dsimp only [hostOps0]
  read_stretch

theorem selfloops_keeps_main_arg4 : (after (hostOps0 (F := Ideal)) W (Proc.devRef .tc main_arg4) : FVec Ideal S128 .f32) = W (Proc.devRef .tc main_arg4) := by
  dsimp only [hostOps0]
  read_stretch

theorem selfloops_keeps_main_arg5 : (after (hostOps0 (F := Ideal)) W (Proc.devRef .tc main_arg5) : FVec Ideal S128x40 .f32) = W (Proc.devRef .tc main_arg5) := by
  dsimp only [hostOps0]
  read_stretch

theorem selfloops_keeps_main_arg6 : (after (hostOps0 (F := Ideal)) W (Proc.devRef .tc main_arg6) : FVec Ideal S40 .f32) = W (Proc.devRef .tc main_arg6) := by
  dsimp only [hostOps0]
  read_stretch

/-! ## The outlined select: 1/sqrt(degree) where the degree is positive, 0 elsewhere -/

theorem select_reads : (after (hostOps0_1 (F := Ideal)) W (Proc.devRef .tc main_v15) : FVec Ideal S100000 .f32) = select (W (Proc.devRef .tc main_v13)) (W (Proc.devRef .tc main_v14)) (broadcastInDim S100000 ![] Cert.ReferenceIdeal.Facts₀.bcast_S_S100000 (id (W (Proc.devRef .tc main_cst_2)))) := by
  dsimp only [hostOps0_1]
  read_stretch

theorem select_keeps_main_v5 : (after (hostOps0_1 (F := Ideal)) W (Proc.devRef .tc main_v5) : IVec S1700000 32) = W (Proc.devRef .tc main_v5) := by
  dsimp only [hostOps0_1]
  read_stretch

theorem select_keeps_main_v6 : (after (hostOps0_1 (F := Ideal)) W (Proc.devRef .tc main_v6) : IVec S1700000 32) = W (Proc.devRef .tc main_v6) := by
  dsimp only [hostOps0_1]
  read_stretch

theorem select_keeps_main_v8 : (after (hostOps0_1 (F := Ideal)) W (Proc.devRef .tc main_v8) : FVec Ideal S1700000 .f32) = W (Proc.devRef .tc main_v8) := by
  dsimp only [hostOps0_1]
  read_stretch

theorem select_keeps_main_arg0 : (after (hostOps0_1 (F := Ideal)) W (Proc.devRef .tc main_arg0) : FVec Ideal S100000x256 .f32) = W (Proc.devRef .tc main_arg0) := by
  dsimp only [hostOps0_1]
  read_stretch

theorem select_keeps_main_arg3 : (after (hostOps0_1 (F := Ideal)) W (Proc.devRef .tc main_arg3) : FVec Ideal S256x128 .f32) = W (Proc.devRef .tc main_arg3) := by
  dsimp only [hostOps0_1]
  read_stretch

theorem select_keeps_main_arg4 : (after (hostOps0_1 (F := Ideal)) W (Proc.devRef .tc main_arg4) : FVec Ideal S128 .f32) = W (Proc.devRef .tc main_arg4) := by
  dsimp only [hostOps0_1]
  read_stretch

theorem select_keeps_main_arg5 : (after (hostOps0_1 (F := Ideal)) W (Proc.devRef .tc main_arg5) : FVec Ideal S128x40 .f32) = W (Proc.devRef .tc main_arg5) := by
  dsimp only [hostOps0_1]
  read_stretch

theorem select_keeps_main_arg6 : (after (hostOps0_1 (F := Ideal)) W (Proc.devRef .tc main_arg6) : FVec Ideal S40 .f32) = W (Proc.devRef .tc main_arg6) := by
  dsimp only [hostOps0_1]
  read_stretch

/-! ## The last list: each entry's symmetric weight -/

theorem weights_read : (after (hostOps0_2 (F := Ideal)) W (Proc.devRef .tc main_v31) : FVec Ideal S1700000 .f32) = (mulf (mulf (Host.gather Cert.ReferenceIdeal.gather_S100000_S1700000x1_S1700000_n_0_n_n_0_1_1 (W (Proc.devRef .tc main_v15) : FVec Ideal S100000 .f32) (wrapped (W (Proc.devRef .tc main_v5)))) (W (Proc.devRef .tc main_v8) : FVec Ideal S1700000 .f32))
        (Host.gather Cert.ReferenceIdeal.gather_S100000_S1700000x1_S1700000_n_0_n_n_0_1_1 (W (Proc.devRef .tc main_v15) : FVec Ideal S100000 .f32) (wrapped (W (Proc.devRef .tc main_v6)))) : FVec Ideal S1700000 .f32) := by
  dsimp only [hostOps0_2]
  read_stretch

theorem weights_keeps_main_v5 : (after (hostOps0_2 (F := Ideal)) W (Proc.devRef .tc main_v5) : IVec S1700000 32) = W (Proc.devRef .tc main_v5) := by
  dsimp only [hostOps0_2]
  read_stretch

theorem weights_keeps_main_v6 : (after (hostOps0_2 (F := Ideal)) W (Proc.devRef .tc main_v6) : IVec S1700000 32) = W (Proc.devRef .tc main_v6) := by
  dsimp only [hostOps0_2]
  read_stretch

theorem weights_keeps_main_arg0 : (after (hostOps0_2 (F := Ideal)) W (Proc.devRef .tc main_arg0) : FVec Ideal S100000x256 .f32) = W (Proc.devRef .tc main_arg0) := by
  dsimp only [hostOps0_2]
  read_stretch

theorem weights_keeps_main_arg3 : (after (hostOps0_2 (F := Ideal)) W (Proc.devRef .tc main_arg3) : FVec Ideal S256x128 .f32) = W (Proc.devRef .tc main_arg3) := by
  dsimp only [hostOps0_2]
  read_stretch

theorem weights_keeps_main_arg4 : (after (hostOps0_2 (F := Ideal)) W (Proc.devRef .tc main_arg4) : FVec Ideal S128 .f32) = W (Proc.devRef .tc main_arg4) := by
  dsimp only [hostOps0_2]
  read_stretch

theorem weights_keeps_main_arg5 : (after (hostOps0_2 (F := Ideal)) W (Proc.devRef .tc main_arg5) : FVec Ideal S128x40 .f32) = W (Proc.devRef .tc main_arg5) := by
  dsimp only [hostOps0_2]
  read_stretch

theorem weights_keeps_main_arg6 : (after (hostOps0_2 (F := Ideal)) W (Proc.devRef .tc main_arg6) : FVec Ideal S40 .f32) = W (Proc.devRef .tc main_arg6) := by
  dsimp only [hostOps0_2]
  read_stretch

end Cert.GcnValue.KernelHost

end
-- ==== Proof.KernelHostNorm.lean ====
/-
  The idealized kernel's first stretch of host operations, read back.

  From whatever the buffers hold when it starts, the stretch leaves the list of sources and the list of targets (each
  with the self-loops appended) and the symmetric edge weights invSqrtDegree(source) · weight · invSqrtDegree(target),
  as the specification's functions of the edge table and the edge weights it found; and it writes none of the other
  argument arrays. Its three printed lists are composed here.
-/
import proofs.«170599_j18631568130050_1_alg».proof.Proof.Gen.KernelIdeal.Launch
import proofs.«170599_j18631568130050_1_alg».proof.Proof.Stages
import proofs.«170599_j18631568130050_1_alg».proof.Proof.KernelHostNormLists
import Idealize.ShloMosaic.Lib.StableHlo.Run

set_option maxRecDepth 16384

noncomputable section

namespace Cert.GcnValue.KernelHost

open Cert.KernelIdeal Cert.KernelIdeal.Gen
open Idealize.ShloMosaic Idealize.ShloMosaic.TcCoe Idealize.ShloMosaic.StableHlo Idealize.SL.Sem

/-- Reads a stretch of host operations at one buffer: each operation's result at its own buffer is its function of its
    operands, any other buffer is left as it was; the casts an outlined function's typed references insert are
    identities. -/
local macro "read_stretch" : tactic =>
  `(tactic| (after_results_simp; (try simp only [TRef.toBuf, TRef.ofBuf, cast_eq]); (try rfl)))

variable (W : Valuation τ sig (Elt Ideal))

/-! ## The three lists in turn -/

/-- After the stretch the sources' buffer holds the edges' sources followed by the self-loops'. -/
theorem norm_sources : (after (hostOps0_2 (F := Ideal)) (after (hostOps0_1 (F := Ideal)) (after (hostOps0 (F := Ideal)) W)) (Proc.devRef .tc main_v5) : IVec S1700000 32) = sources (W (Proc.devRef .tc main_arg1)) := by
  rw [weights_keeps_main_v5, select_keeps_main_v5, selfloops_sources]

/-- … the targets' buffer the edges' targets followed by the self-loops'. -/
theorem norm_targets : (after (hostOps0_2 (F := Ideal)) (after (hostOps0_1 (F := Ideal)) (after (hostOps0 (F := Ideal)) W)) (Proc.devRef .tc main_v6) : IVec S1700000 32) = targets (W (Proc.devRef .tc main_arg1)) := by
  rw [weights_keeps_main_v6, select_keeps_main_v6, selfloops_targets]

/-- … and the norm's buffer each entry's symmetric weight, a function of the edge table and the edge weights alone. -/
theorem norm_weights : (after (hostOps0_2 (F := Ideal)) (after (hostOps0_1 (F := Ideal)) (after (hostOps0 (F := Ideal)) W)) (Proc.devRef .tc main_v31) : FVec Ideal S1700000 .f32) = edgeNorm (W (Proc.devRef .tc main_arg1)) (W (Proc.devRef .tc main_arg2)) := by
  rw [weights_read, select_reads, select_keeps_main_v5, select_keeps_main_v6, select_keeps_main_v8,
    degree_positive, degree_rsqrt, zero_scalar, selfloops_sources, selfloops_targets, selfloops_weights]
  rfl

/-! The stretch writes none of the node features, the weight matrices or the biases. -/
theorem norm_keeps_main_arg0 : (after (hostOps0_2 (F := Ideal)) (after (hostOps0_1 (F := Ideal)) (after (hostOps0 (F := Ideal)) W)) (Proc.devRef .tc main_arg0) : FVec Ideal S100000x256 .f32) = W (Proc.devRef .tc main_arg0) := by
  rw [weights_keeps_main_arg0, select_keeps_main_arg0, selfloops_keeps_main_arg0]

theorem norm_keeps_main_arg3 : (after (hostOps0_2 (F := Ideal)) (after (hostOps0_1 (F := Ideal)) (after (hostOps0 (F := Ideal)) W)) (Proc.devRef .tc main_arg3) : FVec Ideal S256x128 .f32) = W (Proc.devRef .tc main_arg3) := by
  rw [weights_keeps_main_arg3, select_keeps_main_arg3, selfloops_keeps_main_arg3]

theorem norm_keeps_main_arg4 : (after (hostOps0_2 (F := Ideal)) (after (hostOps0_1 (F := Ideal)) (after (hostOps0 (F := Ideal)) W)) (Proc.devRef .tc main_arg4) : FVec Ideal S128 .f32) = W (Proc.devRef .tc main_arg4) := by
  rw [weights_keeps_main_arg4, select_keeps_main_arg4, selfloops_keeps_main_arg4]

theorem norm_keeps_main_arg5 : (after (hostOps0_2 (F := Ideal)) (after (hostOps0_1 (F := Ideal)) (after (hostOps0 (F := Ideal)) W)) (Proc.devRef .tc main_arg5) : FVec Ideal S128x40 .f32) = W (Proc.devRef .tc main_arg5) := by
  rw [weights_keeps_main_arg5, select_keeps_main_arg5, selfloops_keeps_main_arg5]

theorem norm_keeps_main_arg6 : (after (hostOps0_2 (F := Ideal)) (after (hostOps0_1 (F := Ideal)) (after (hostOps0 (F := Ideal)) W)) (Proc.devRef .tc main_arg6) : FVec Ideal S40 .f32) = W (Proc.devRef .tc main_arg6) := by
  rw [weights_keeps_main_arg6, select_keeps_main_arg6, selfloops_keeps_main_arg6]

end Cert.GcnValue.KernelHost

end
-- ==== Proof.KernelHostAggregate.lean ====
/-
  The idealized kernel's two aggregation stretches of host operations, read back.

  Each takes a matrix of per-node rows, gathers the row of every entry's source, multiplies it by the entry's symmetric
  weight and adds the products up at the entry's target: the specification's 'aggregate128' and 'aggregate40' of the
  matrix, the two lists and the norm as the stretch found them. Neither writes the lists, the norm or the arguments.
-/
import proofs.«170599_j18631568130050_1_alg».proof.Proof.Gen.KernelIdeal.Launch
import proofs.«170599_j18631568130050_1_alg».proof.Proof.Stages
import Idealize.ShloMosaic.Lib.StableHlo.Run

set_option maxRecDepth 16384

noncomputable section

namespace Cert.GcnValue.KernelHost

open Cert.KernelIdeal Cert.KernelIdeal.Gen
open Idealize.ShloMosaic Idealize.ShloMosaic.TcCoe Idealize.ShloMosaic.StableHlo Idealize.SL.Sem

/-- Reads a stretch of host operations at one buffer: each operation's result at its own buffer is its function of its
    operands, any other buffer is left as it was; the casts an outlined function's typed references insert are
    identities. -/
local macro "read_stretch" : tactic =>
  `(tactic| (after_results_simp; (try simp only [TRef.toBuf, TRef.ofBuf, cast_eq]); (try rfl)))

variable (W : Valuation τ sig (Elt Ideal))

/-! ## The stretch between the first dense product and the first bias kernel -/

/-- The stretch gathers the product's rows at the sources, scales them by the norm and adds them up at the targets. -/
theorem aggregate_first : (after (hostOps1 (F := Ideal)) W (Proc.devRef .tc main_v45) : FVec Ideal S100000x128 .f32)
    = aggregate128 (W (Proc.devRef .tc main_v32)) (W (Proc.devRef .tc main_v5)) (W (Proc.devRef .tc main_v6)) (W (Proc.devRef .tc main_v31)) := by
  dsimp only [hostOps1]
  read_stretch

/-! It writes none of the lists, the norm, or the arguments still to be used. -/
theorem first_keeps_main_v5 : (after (hostOps1 (F := Ideal)) W (Proc.devRef .tc main_v5) : IVec S1700000 32) = W (Proc.devRef .tc main_v5) := by
  dsimp only [hostOps1]
  read_stretch

theorem first_keeps_main_v6 : (after (hostOps1 (F := Ideal)) W (Proc.devRef .tc main_v6) : IVec S1700000 32) = W (Proc.devRef .tc main_v6) := by
  dsimp only [hostOps1]
  read_stretch

theorem first_keeps_main_v31 : (after (hostOps1 (F := Ideal)) W (Proc.devRef .tc main_v31) : FVec Ideal S1700000 .f32) = W (Proc.devRef .tc main_v31) := by
  dsimp only [hostOps1]
  read_stretch

theorem first_keeps_main_arg4 : (after (hostOps1 (F := Ideal)) W (Proc.devRef .tc main_arg4) : FVec Ideal S128 .f32) = W (Proc.devRef .tc main_arg4) := by
  dsimp only [hostOps1]
  read_stretch

theorem first_keeps_main_arg5 : (after (hostOps1 (F := Ideal)) W (Proc.devRef .tc main_arg5) : FVec Ideal S128x40 .f32) = W (Proc.devRef .tc main_arg5) := by
  dsimp only [hostOps1]
  read_stretch

theorem first_keeps_main_arg6 : (after (hostOps1 (F := Ideal)) W (Proc.devRef .tc main_arg6) : FVec Ideal S40 .f32) = W (Proc.devRef .tc main_arg6) := by
  dsimp only [hostOps1]
  read_stretch

/-! ## The stretch between the second dense product and the last kernel -/

/-- The same aggregation on the second product's 40 columns. -/
theorem aggregate_second : (after (hostOps3 (F := Ideal)) W (Proc.devRef .tc main_v60) : FVec Ideal S100000x40 .f32)
    = aggregate40 (W (Proc.devRef .tc main_v47)) (W (Proc.devRef .tc main_v5)) (W (Proc.devRef .tc main_v6)) (W (Proc.devRef .tc main_v31)) := by
  dsimp only [hostOps3]
  read_stretch

theorem second_keeps_main_arg6 : (after (hostOps3 (F := Ideal)) W (Proc.devRef .tc main_arg6) : FVec Ideal S40 .f32) = W (Proc.devRef .tc main_arg6) := by
  dsimp only [hostOps3]
  read_stretch

end Cert.GcnValue.KernelHost

end
-- ==== Proof.LibPlainDot.lean ====
/-
  General facts, at the extended reals, about a two-dimensional matrix product whose dimension numbers contract
  the left operand's second axis with the right operand's first (no batch axis).

  * A matrix unit's product of operands first cast to a narrower float format, accumulated into the zero splat,
    IS the host's dot_general of the uncast operands under the same dimension numbers: at each output index both
    are the sum over the contraction index of the products of the operands' entries, the casts being the identity
    and the zero accumulator adding nothing.
  * That sum, indexed by the dimension numbers' own contraction index, is the textbook sum over k < K of
    l(r, k) · r(k, c): the contraction index of a one-axis contraction is its one coordinate, and the operand
    indices at (r, c) and k are (r, k) and (k, c) — the four coordinate facts are hypotheses, discharged per record
    from the dimension numbers.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

/-- Into the zero splat, after narrowing casts of both operands, the matrix unit's product is the host's
    dot_general of the operands themselves (same dimension numbers, any precision word): index by index both are
    the contraction's sum of products. -/
theorem matmul_truncf_zero_eq_dotGeneral {sl sr so : Shape} {φ₁ φ₂ ψ₁ ψ₂ : FTy} (d : DotDims sl sr so)
    (prec : Option ContractPrecision) (l : FVec Ideal sl φ₁) (r : FVec Ideal sr φ₂)
    (h₁ : ψ₁.bits < φ₁.bits) (h₂ : ψ₂.bits < φ₂.bits) :
    matmul d prec (truncf ψ₁ l h₁) (truncf ψ₂ r h₂) (constant so .f32 0x00000000#32) = Host.dotGeneral d prec l r :=
  funext fun j =>
    ((Ideal.matmul_constant_zero_apply d prec (truncf ψ₁ l h₁) (truncf ψ₂ r h₂) j).trans
      (Finset.sum_congr rfl fun _ _ => rfl)).trans (Ideal.dotGeneral_apply d prec .single l r j).symm

/-- The contraction's sum at output index (r, c), re-indexed by the contracted coordinate k < K:
    the sum of l(r, k) · r(k, c). -/
theorem contraction_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (a : Fin M) (c : Fin N) :
    ∑ q : d.contr.Idx, l (d.lhsIdx (ix2 a c) q) * r (d.rhsIdx (ix2 a c) q) = ∑ k : Fin K, l (ix2 a k) * r (ix2 k c) := by
  rw [← Equiv.sum_comp (contrEquiv1 d K hr hs).symm]
  refine Finset.sum_congr rfl fun k _ => ?_
  have hk := contrEquiv1_symm_val d K hr hs k
  have el : d.lhsIdx (ix2 a c) ((contrEquiv1 d K hr hs).symm k) = ix2 a k := funext fun x => Fin.ext (by
    match x with
    | ⟨0, _⟩ => exact hl0 _ _
    | ⟨1, _⟩ => exact (hl1 _ _).trans hk)
  have er : d.rhsIdx (ix2 a c) ((contrEquiv1 d K hr hs).symm k) = ix2 k c := funext fun x => Fin.ext (by
    match x with
    | ⟨0, _⟩ => exact (hr0 _ _).trans hk
    | ⟨1, _⟩ => exact hr1 _ _)
  rw [el, er]

/-- The host's dot_general at output index (r, c): the sum over k < K of l(r, k) · r(k, c). -/
theorem dotGeneral_apply_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (a : Fin M) (c : Fin N) :
    Host.dotGeneral d prec l r (ix2 a c) = ∑ k : Fin K, l (ix2 a k) * r (ix2 k c) :=
  (Ideal.dotGeneral_apply d prec .single l r (ix2 a c)).trans (contraction_sum d hr hs hl0 hl1 hr0 hr1 l r a c)

/-- A sum over k < K₁ + K₂ splits at K₁ (any commutative monoid: no finiteness is asked of the terms). -/
theorem sum_split {A : Type*} [AddCommMonoid A] (K₁ K₂ : Nat) (f : Fin (K₁ + K₂) → A) :
    ∑ k : Fin (K₁ + K₂), f k = ∑ k : Fin K₁, f (Fin.castAdd K₂ k) + ∑ k : Fin K₂, f (Fin.natAdd K₁ k) :=
  Fin.sum_univ_add f

end Cert.Lib.PlainDot

end
-- ==== Proof.LibDenseLayer.lean ====
/-
  A dense layer at the extended reals, read one block of rows at a time.

  A matrix of M rows is cut into blocks of Mb consecutive rows. Every operation of a dense layer — a rows-by-columns
  product with a fixed right factor, an entrywise sum or maximum, the addition of one bias row to every row, a
  constant matrix — acts on each row by itself, so what it makes of a block of rows is the same block of rows of
  what it makes of the whole matrix. `RowBlk off xb X` says that `xb` is the block of `X` that starts at row
  `off`; the lemmas below carry that relation through each operation. No finiteness is asked of any entry: the
  two sides are the same sums of the same products.
-/
import Idealize.ShloMosaic.PureOps.Ideal.Laws
import Idealize.ShloMosaic.Lib.ValueIdx
import Idealize.ShloMosaic.Lib.Pipeline.Value
import proofs.«170599_j18631568130050_1_alg».proof.Proof.LibPlainDot

noncomputable section

open scoped BigOperators

namespace Cert.Lib.DenseLayer

open Idealize.ShloMosaic Idealize.ShloMosaic.ValueIdx Cert.Lib.PlainDot

/-- A rank-2 record that contracts the left operand's second axis with the right operand's first and has no
    batch axis: the six facts that read it as the textbook product. -/
structure Plain {M K N : Nat} (d : DotDims ⟨2, ![M, K]⟩ ⟨2, ![K, N]⟩ ⟨2, ![M, N]⟩) : Prop where
  rank : d.contr.rank = 1
  size : d.contr.size ⟨0, by omega⟩ = K
  l0 : ∀ (i : (⟨2, ![M, N]⟩ : Shape).Idx) (q : d.contr.Idx), (d.lhsIdx i q 0).val = (i 0).val
  l1 : ∀ (i : (⟨2, ![M, N]⟩ : Shape).Idx) (q : d.contr.Idx), (d.lhsIdx i q 1).val = (q ⟨0, by omega⟩).val
  r0 : ∀ (i : (⟨2, ![M, N]⟩ : Shape).Idx) (q : d.contr.Idx), (d.rhsIdx i q 0).val = (q ⟨0, by omega⟩).val
  r1 : ∀ (i : (⟨2, ![M, N]⟩ : Shape).Idx) (q : d.contr.Idx), (d.rhsIdx i q 1).val = (i 1).val

/-- The product at entry (r, c) is the sum over k of l(r, k) · w(k, c). -/
theorem Plain.dot_apply {M K N : Nat} {d : DotDims ⟨2, ![M, K]⟩ ⟨2, ![K, N]⟩ ⟨2, ![M, N]⟩} (hd : Plain d)
    (l : FVec Ideal ⟨2, ![M, K]⟩ .f32) (w : FVec Ideal ⟨2, ![K, N]⟩ .f32) (r : Fin M) (c : Fin N) :
    Host.dotGeneral d none l w (ix2 r c) = ∑ k : Fin K, l (ix2 r k) * w (ix2 k c) :=
  dotGeneral_apply_ix2 d hd.rank hd.size hd.l0 hd.l1 hd.r0 hd.r1 none l w r c

/-- `xb` is the block of `Mb` rows of `X` that starts at row `off`. -/
def RowBlk {Mb M K : Nat} (off : Nat) (xb : (⟨2, ![Mb, K]⟩ : Shape).Idx → EReal) (X : (⟨2, ![M, K]⟩ : Shape).Idx → EReal) : Prop :=
  ∀ (r : Fin Mb) (h : off + r.val < M) (k : Fin K), xb (ix2 r k) = X (ix2 ⟨off + r.val, h⟩ k)

/-- A block of rows times a matrix is the block of rows of the product. -/
theorem RowBlk.dot {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) :
    RowBlk off (Host.dotGeneral db none xb w) (Host.dotGeneral dh none X w) := fun r hr c => by
  rw [hb.dot_apply, hh.dot_apply]
  exact Finset.sum_congr rfl fun k _ => congrArg (· * w (ix2 k c)) (h r hr k)

/-- The matrix unit's product of narrowed operands into the zero matrix, on a block of rows. -/
theorem RowBlk.matmul {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) (h₁ : FTy.bf16.bits < FTy.f32.bits) (h₂ : FTy.bf16.bits < FTy.f32.bits) :
    RowBlk off (matmul db none (truncf .bf16 xb h₁) (truncf .bf16 w h₂) (constant ⟨2, ![Mb, N]⟩ .f32 0x00000000#32))
      (Host.dotGeneral dh none X w) := by
  rw [matmul_truncf_zero_eq_dotGeneral]
  exact h.dot hb hh w

/-- Entrywise sums of blocks of rows. -/
theorem RowBlk.add {Mb M K : Nat} {off : Nat} {a b : FVec Ideal ⟨2, ![Mb, K]⟩ .f32} {A B : FVec Ideal ⟨2, ![M, K]⟩ .f32}
    (ha : RowBlk off a A) (hb : RowBlk off b B) : RowBlk off (addf a b) (addf A B) := fun r hr k => by
  rw [addf_apply, addf_apply, ha r hr k, hb r hr k]

/-- Entrywise maxima of blocks of rows. -/
theorem RowBlk.max {Mb M K : Nat} {off : Nat} {a b : FVec Ideal ⟨2, ![Mb, K]⟩ .f32} {A B : FVec Ideal ⟨2, ![M, K]⟩ .f32}
    (ha : RowBlk off a A) (hb : RowBlk off b B) : RowBlk off (maximumf a b) (maximumf A B) := fun r hr k => by
  rw [maximumf_apply, maximumf_apply, ha r hr k, hb r hr k]

/-- Two constant matrices of one value. -/
theorem RowBlk.const {Mb M K : Nat} {off : Nat} {z : (⟨2, ![Mb, K]⟩ : Shape).Idx → EReal} {Z : (⟨2, ![M, K]⟩ : Shape).Idx → EReal}
    (v : EReal) (hz : ∀ i, z i = v) (hZ : ∀ i, Z i = v) : RowBlk off z Z := fun r hr k => (hz _).trans (hZ _).symm

/-- One bias row added to every row: inside the body a broadcast of the row to the block, on the host a
    broadcast along the rows to the whole matrix. -/
theorem RowBlk.bias {Mb M N : Nat} {off : Nat} (b : (⟨2, ![1, N]⟩ : Shape).Idx → EReal)
    (hb : (⟨2, ![1, N]⟩ : Shape).Broadcasts ⟨2, ![Mb, N]⟩)
    (hB : (⟨2, ![1, N]⟩ : Shape).BroadcastsInDim ⟨2, ![M, N]⟩ ![0, 1]) :
    RowBlk off (broadcastTo ⟨2, ![Mb, N]⟩ b hb) (broadcastInDim ⟨2, ![M, N]⟩ ![0, 1] hB b) := fun r hr c => by
  have hc : N = 1 → c.val = 0 := fun e => by have := c.isLt; omega
  rw [broadcastTo_apply b hb (ix2 r c) (ix2 0 c) (fun a => by
        match a with
        | ⟨0, _⟩ => exact (if_pos rfl).symm
        | ⟨1, _⟩ =>
          show c.val = if N = 1 then 0 else c.val
          split
          · exact hc ‹_›
          · rfl),
      broadcastInDim_apply ![0, 1] hB b (ix2 ⟨off + r.val, hr⟩ c) (ix2 0 c) (fun a => by
        match a with
        | ⟨0, _⟩ => exact (if_pos rfl).symm
        | ⟨1, _⟩ =>
          show c.val = if N = 1 then 0 else c.val
          split
          · exact hc ‹_›
          · rfl)]

/-- A block that is the whole matrix (one block, starting at row 0). -/
theorem RowBlk.whole {M K : Nat} (X : (⟨2, ![M, K]⟩ : Shape).Idx → EReal) : RowBlk 0 X X := fun r hr k => by
  have : (⟨0 + r.val, hr⟩ : Fin M) = r := Fin.ext (Nat.zero_add _)
  rw [this]

/-- A vector of n entries made a 1×n row — by a reshape, or by a broadcast along a new unit axis — is one and the
    same row. -/
theorem addUnit_eq_bcast {α : Type} {n : Nat} (hn : n ≠ 1) (b : (⟨1, ![n]⟩ : Shape).Idx → α)
    (hs : (⟨1, ![n]⟩ : Shape).ShapeCasts ⟨2, ![1, n]⟩) (hb : (⟨1, ![n]⟩ : Shape).BroadcastsInDim ⟨2, ![1, n]⟩ ![1]) :
    shapeCast ⟨2, ![1, n]⟩ b hs = broadcastInDim ⟨2, ![1, n]⟩ ![1] hb b := funext fun j =>
  (shapeCast_addUnit_apply ![n] b hs j).trans
    (broadcastInDim_apply ![1] hb b j (fun a => j a.succ) (fun a => by
      match a with
      | ⟨0, _⟩ => exact (if_neg hn).symm)).symm

end Cert.Lib.DenseLayer

end
-- ==== Proof.LibPlainRecord.lean ====
/-
  A rank-2 product record whose dimension numbers are the plain ones — the left operand's second axis contracted with the
  right operand's first, no batch axis, the left rows then the right columns kept — reads as the textbook product:
  its contraction has one axis of extent K, the left operand is read at (row, k) and the right at (k, column).
-/
import proofs.«170599_j18631568130050_1_alg».proof.Proof.LibDenseLayer

noncomputable section

namespace Cert.Lib.DenseLayer

open Idealize.ShloMosaic Idealize.ShloMosaic.ValueIdx

/-- The six coordinate facts from the six lists of the dimension numbers. -/
theorem Plain.of_fields {M K N : Nat} (d : DotDims ⟨2, ![M, K]⟩ ⟨2, ![K, N]⟩ ⟨2, ![M, N]⟩)
    (h1 : d.lhsContracting = [1]) (h2 : d.rhsContracting = [0]) (h3 : d.lhsNonContracting = [0]) (h4 : d.rhsNonContracting = [1])
    (h5 : d.lhsBatch = []) (h6 : d.rhsBatch = []) : Plain d where
  rank := by rw [d.rank_contr, h1]; rfl
  size := by
    have : d.contr = Shape.ofList ([1].map (⟨2, ![M, K]⟩ : Shape).size) := by unfold DotDims.contr; rw [h1]
    rw [show d.contr.size ⟨0, by rw [d.rank_contr, h1]; exact Nat.one_pos⟩ = K from by
      unfold DotDims.contr; simp [h1, Shape.ofList]]
  l0 := fun i q => by
    have key : ∀ (n : Nat) (hn : n < 2), n = 0 → (i ⟨n, hn⟩).val = (i 0).val := fun n hn h0 => by subst h0; rfl
    unfold DotDims.lhsIdx
    simp only [h5, h3, List.not_mem_nil, dite_false, List.mem_singleton, dite_true, Fin.val_cast]
    exact key _ _ (by simp [h5, h3])
  l1 := fun i q => d.lhsIdx_val_of_single h1 i q
  r0 := fun i q => d.rhsIdx_val_of_single h2 i q
  r1 := fun i q => by
    have key : ∀ (n : Nat) (hn : n < 2), n = 1 → (i ⟨n, hn⟩).val = (i 1).val := fun n hn h0 => by subst h0; rfl
    unfold DotDims.rhsIdx
    simp only [h6, h4, List.not_mem_nil, dite_false, List.mem_singleton, dite_true, Fin.val_cast]
    exact key _ _ (by simp [h5, h3, h4])

/-- Entrywise products of blocks of rows. -/
theorem RowBlk.mul {Mb M K : Nat} {off : Nat} {a b : FVec Ideal ⟨2, ![Mb, K]⟩ .f32} {A B : FVec Ideal ⟨2, ![M, K]⟩ .f32}
    (ha : RowBlk off a A) (hb : RowBlk off b B) : RowBlk off (mulf a b) (mulf A B) := fun r hr k => by
  rw [mulf_apply, mulf_apply, ha r hr k, hb r hr k]

/-- A reshape to the same shape changes nothing. -/
theorem RowBlk.castSelf {Mb M K : Nat} {off : Nat} {a : (⟨2, ![Mb, K]⟩ : Shape).Idx → EReal} {A : (⟨2, ![M, K]⟩ : Shape).Idx → EReal}
    (ha : RowBlk off a A) (h : (⟨2, ![Mb, K]⟩ : Shape).ShapeCasts ⟨2, ![Mb, K]⟩) : RowBlk off (shapeCast ⟨2, ![Mb, K]⟩ a h) A := by
  rw [shapeCast_self]; exact ha

/-- An entrywise function of a block of rows. -/
theorem RowBlk.map {Mb M K : Nat} {off : Nat} {a : (⟨2, ![Mb, K]⟩ : Shape).Idx → EReal} {A : (⟨2, ![M, K]⟩ : Shape).Idx → EReal}
    (ha : RowBlk off a A) (f : EReal → EReal) : RowBlk off (fun i => f (a i)) (fun i => f (A i)) := fun r hr k => by
  show f (a (ix2 r k)) = f (A (ix2 ⟨off + r.val, hr⟩ k)); rw [ha r hr k]

end Cert.Lib.DenseLayer

end
-- ==== Proof.BlockEntry.lean ====
/-
  A block of rows read at one entry.

  'RowBlk off a A' says that 'a' is the block of rows of the matrix 'A' that starts at row 'off'. Read at a single
  entry: row r of the block, column k, is row off + r of the matrix, column k — stated for an index of the block and an
  index of the matrix whose coordinates are so related, which is how a window's block meets its array.
-/
import proofs.«170599_j18631568130050_1_alg».proof.Proof.LibPlainRecord

noncomputable section

namespace Cert.GcnValue

open Idealize.ShloMosaic Idealize.ShloMosaic.ValueIdx Cert.Lib.DenseLayer

/-- The offsets of a whole-block access, spelt as a pair of zeros, are zero on every axis. -/
theorem zero2 : (![0, 0] : Fin 2 → Nat) = fun _ => 0 := funext fun a => by fin_cases a <;> rfl

/-- The same for a vector. -/
theorem zero1 : (![0] : Fin 1 → Nat) = fun _ => 0 := funext fun a => by fin_cases a; rfl

/-- Entry j of the block is entry i of the matrix when i is 'off' rows below j in the same column. -/
theorem entry_of_rowBlk {Mb M K : Nat} {off : Nat} {a : (⟨2, ![Mb, K]⟩ : Shape).Idx → EReal} {A : (⟨2, ![M, K]⟩ : Shape).Idx → EReal}
    (h : RowBlk off a A) (j : (⟨2, ![Mb, K]⟩ : Shape).Idx) (i : (⟨2, ![M, K]⟩ : Shape).Idx)
    (hrow : (i 0).val = off + (j 0).val) (hcol : (i 1).val = (j 1).val) : a j = A i := by
  obtain ⟨r, k, rfl⟩ : ∃ (r : Fin Mb) (k : Fin K), j = ix2 r k := ⟨j 0, j 1, eq_ix2 j⟩
  obtain ⟨R, k', rfl⟩ : ∃ (R : Fin M) (k' : Fin K), i = ix2 R k' := ⟨i 0, i 1, eq_ix2 i⟩
  have hR : R.val = off + r.val := hrow
  have hk : k'.val = k.val := hcol
  have hlt : off + r.val < M := hR ▸ R.isLt
  rw [show R = ⟨off + r.val, hlt⟩ from Fin.ext hR, show k' = k from Fin.ext hk]
  exact h r hlt k

end Cert.GcnValue

end
-- ==== Proof.RegionDenseFirst.lean ====
/-
  The first dense product kernel, as one function of whole arrays.

  The kernel runs over ten grid points; point t loads rows 10000·t … 10000·t + 9999 of the node features and the whole
  weight matrix, narrows both, multiplies them into a zero accumulator and stores the 10000 × 128 result, which is
  written back as rows 10000·t … of the output. At the extended reals narrowing is the identity and the zero adds
  nothing, so each stored block is that block of rows of the whole product; the ten blocks tile the output, so the
  output array ends holding the product of the whole feature matrix and the weight matrix.
-/
import proofs.«170599_j18631568130050_1_alg».proof.Proof.Gen.KernelIdeal.Frame
import proofs.«170599_j18631568130050_1_alg».proof.Proof.Stages
import proofs.«170599_j18631568130050_1_alg».proof.Proof.BlockEntry
import Idealize.ShloMosaic.Lib.Pipeline.Value

set_option maxRecDepth 16384

noncomputable section

namespace Cert.GcnValue

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.DenseLayer

variable (V : (c : Dev nD) → (b : Ref sig .tc) → Buf (Elt Ideal) ((c : Thread nD τ).loc b))

/-- On a block of rows the body's product (both factors narrowed, accumulated into zero) is the block of rows of the
    whole product: a row of a product depends on that row of the left factor alone. -/
theorem dense_first_block (x0 : Vec Ideal S10000x256 .f32) (x1 : Vec Ideal S256x128 .f32)
    (X : FVec Ideal Cert.ReferenceIdeal.S100000x256 .f32) (Wt : FVec Ideal Cert.ReferenceIdeal.S256x128 .f32) (off : Nat)
    (h0 : RowBlk off x0 X) (h1 : x1 = Wt) : RowBlk off (k0_pay1 x0 x1) (dense1 X Wt) := by
  subst h1
  unfold k0_pay1 dense1
  exact RowBlk.matmul (Plain.of_fields _ rfl rfl rfl rfl rfl rfl) (Plain.of_fields _ rfl rfl rfl rfl rfl rfl) h0 x1 _ _

/-- The printed index maps over the grid: the row windows sit at block row t, column block 0; the side window is
    the whole of its array at every point. -/
theorem dense_first_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of the product of the node features and the first weight matrix. -/
theorem dense_first_flushed (c : Dev nD) (t : Fin cfg0.N) :
    (dat0 V c).flushed 2 t = ((cfg0.win 2).blk t).view.read (Elt Ideal) (dense1 (V c main_arg0) (V c main_arg3)) := by
  show (cfg0.win 2).cut (grid0.coords t) ((dat0 V c).after 2 t) = _
  rw [after0_2]
  unfold out0_2
  rw [View.canon_unit_zero zero2]
  simp only [View.ld_unit_zero (S := S10000x256) zero2, View.ld_unit_zero (S := S256x128) zero2]
  obtain ⟨r0, r1, s0, s1, o0, o1⟩ := dense_first_index t
  have hrow : RowBlk (t.val * 10000) (iblk0 V c 0 t) (V c main_arg0) := fun r hr k => by
    show V c main_arg0 (((cfg0.win 0).blk t).view.emb (ix2 r k)) = V c main_arg0 (ix2 ⟨t.val * 10000 + r.val, hr⟩ k)
    refine congrArg (V c main_arg0) (funext fun a => Fin.ext ?_)
    match a with
    | ⟨0, _⟩ => show win0_0.index t (0 : Fin 2) * 10000 + 1 * r.val = t.val * 10000 + r.val; omega
    | ⟨1, _⟩ => show win0_0.index t (1 : Fin 2) * 256 + 1 * k.val = k.val; omega
  have hside : iblk0 V c 1 t = V c main_arg3 := funext fun y => by
    show V c main_arg3 (((cfg0.win 1).blk t).view.emb y) = V c main_arg3 y
    refine congrArg (V c main_arg3) (funext fun a => Fin.ext ?_)
    match a with
    | ⟨0, _⟩ => show win0_1.index t (0 : Fin 2) * 256 + 1 * (y 0).val = (y 0).val; omega
    | ⟨1, _⟩ => show win0_1.index t (1 : Fin 2) * 128 + 1 * (y 1).val = (y 1).val; omega
  funext j
  refine entry_of_rowBlk (dense_first_block (iblk0 V c 0 t) (iblk0 V c 1 t) (V c main_arg0) (V c main_arg3) (t.val * 10000) hrow hside) j
    (((cfg0.win 2).blk t).view.emb j) ?_ ?_
  · show win0_2.index t (0 : Fin 2) * 10000 + 1 * (j 0).val = t.val * 10000 + (j 0).val; omega
  · show win0_2.index t (1 : Fin 2) * 128 + 1 * (j 1).val = (j 1).val; omega

/-- An index of the array is in point t's block iff each coordinate is in the block's range on its axis. -/
theorem dense_first_mem_block (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v32).slice (win0_2.rect t)).set ↔ _
  rw [View.set_slice_whole, Rect.mem_set_unit]
  exact Iff.rfl

/-- Every row of the array is in the block of the point numbered row / 10000. -/
theorem dense_first_cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  refine ⟨⟨(i 0).val / 10000, by rw [hN]; omega⟩, flush0_2 _, ?_⟩
  rw [dense_first_mem_block]
  obtain ⟨-, -, -, -, o0, o1⟩ := dense_first_index ⟨(i 0).val / 10000, by rw [hN]; omega⟩
  intro a
  match a with
  | ⟨0, _⟩ => show win0_2.index _ (0 : Fin 2) * 10000 ≤ (i 0).val ∧ (i 0).val < win0_2.index _ (0 : Fin 2) * 10000 + 10000; rw [o0]; show (i 0).val / 10000 * 10000 ≤ _ ∧ _ < (i 0).val / 10000 * 10000 + 10000; omega
  | ⟨1, _⟩ => show win0_2.index _ (1 : Fin 2) * 128 ≤ (i 1).val ∧ (i 1).val < win0_2.index _ (1 : Fin 2) * 128 + 128; rw [o1]; omega

/-- After the kernel its output array holds the product of the node features and the first weight matrix, whatever the contents V it was entered from. -/
theorem dense_first_final (c : Dev nD) : (dat0 V c).arrAt 2 cfg0.N = dense1 (V c main_arg0) (V c main_arg3) :=
  (dat0 V c).arrAt_eq_of_cover 2 _ (fun t _ => dense_first_flushed V c t) (dense_first_cover)

end Cert.GcnValue

end
-- ==== Proof.RegionBiasRelu.lean ====
/-
  The bias-and-rectifier kernel, as one function of whole arrays.

  Point t of its ten grid points loads rows 10000·t … of the aggregated matrix and the whole bias vector, adds the bias
  (made a row and broadcast down the block) to every row, takes the maximum with 0 and stores the block, which is written
  back as the same rows of the output. Adding a row to every row and an entrywise maximum act on each row by itself, so
  the stored block is that block of rows of the whole matrix so treated; the blocks tile the output.
-/
import proofs.«170599_j18631568130050_1_alg».proof.Proof.Gen.KernelIdeal.Frame
import proofs.«170599_j18631568130050_1_alg».proof.Proof.Stages
import proofs.«170599_j18631568130050_1_alg».proof.Proof.BlockEntry
import Idealize.ShloMosaic.Lib.Pipeline.Value

set_option maxRecDepth 16384

noncomputable section

namespace Cert.GcnValue

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.DenseLayer

variable (V : (c : Dev nD) → (b : Ref sig .tc) → Buf (Elt Ideal) ((c : Thread nD τ).loc b))

/-- A vector broadcast from a constant of rank 0 reads the constant at every index. -/
theorem splat_apply {s : Shape} (hB : (⟨0, ![]⟩ : Shape).BroadcastsInDim s ![]) (w : BitVec 32) (i : s.Idx) :
    broadcastInDim s ![] hB (constant (F := Ideal) ⟨0, ![]⟩ .f32 w) i = Ideal.ofBits .f32 w := by
  rw [broadcastInDim_apply (s := ⟨0, ![]⟩) ![] hB (constant (F := Ideal) ⟨0, ![]⟩ .f32 w) i (fun d => d.elim0) (fun d => d.elim0), constant_apply]

/-- On a block of rows the body's bias row added to every row and the maximum with the splat 0 are the block of rows of
    the whole matrix with the bias row added and the maximum with the constant 0 taken. -/
theorem bias_relu_block (x0 : Vec Ideal S10000x128 .f32) (x1 : Vec Ideal S128 .f32)
    (X : FVec Ideal Cert.ReferenceIdeal.S100000x128 .f32) (B : FVec Ideal Cert.ReferenceIdeal.S128 .f32) (off : Nat)
    (h0 : RowBlk off x0 X) (h1 : x1 = B) : RowBlk off (k1_pay1 x0 x1) (biasRelu X B) := by
  subst h1
  unfold k1_pay1 biasRelu
  refine RowBlk.max (RowBlk.add (h0.castSelf _) ?_) ?_
  · rw [addUnit_eq_bcast (by decide) x1 _ Cert.ReferenceIdeal.Facts₀.bcast_S128_S1x128_1]
    exact RowBlk.bias _ _ _
  · exact RowBlk.const (Ideal.ofBits .f32 0x00000000#32) (fun _ => rfl) (fun i => splat_apply _ _ i)

/-- The printed index maps over the grid: the row windows sit at block row t, column block 0; the side window is
    the whole of its array at every point. -/
theorem bias_relu_index : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- What grid point t writes back is block t of the aggregated matrix with the first bias row added to every row and the maximum with 0 taken. -/
theorem bias_relu_flushed (c : Dev nD) (t : Fin cfg1.N) :
    (dat1 V c).flushed 2 t = ((cfg1.win 2).blk t).view.read (Elt Ideal) (biasRelu (V c main_v45) (V c main_arg4)) := by
  show (cfg1.win 2).cut (grid1.coords t) ((dat1 V c).after 2 t) = _
  rw [after1_2]
  unfold out1_2
  rw [View.canon_unit_zero zero2]
  simp only [View.ld_unit_zero (S := S10000x128) zero2, View.ld_unit_zero (S := S128) zero1]
  obtain ⟨r0, r1, s0, o0, o1⟩ := bias_relu_index t
  have hrow : RowBlk (t.val * 10000) (iblk1 V c 0 t) (V c main_v45) := fun r hr k => by
    show V c main_v45 (((cfg1.win 0).blk t).view.emb (ix2 r k)) = V c main_v45 (ix2 ⟨t.val * 10000 + r.val, hr⟩ k)
    refine congrArg (V c main_v45) (funext fun a => Fin.ext ?_)
    match a with
    | ⟨0, _⟩ => show win1_0.index t (0 : Fin 2) * 10000 + 1 * r.val = t.val * 10000 + r.val; omega
    | ⟨1, _⟩ => show win1_0.index t (1 : Fin 2) * 128 + 1 * k.val = k.val; omega
  have hside : iblk1 V c 1 t = V c main_arg4 := funext fun y => by
    show V c main_arg4 (((cfg1.win 1).blk t).view.emb y) = V c main_arg4 y
    refine congrArg (V c main_arg4) (funext fun a => Fin.ext ?_)
    match a with
    | ⟨0, _⟩ => show win1_1.index t (0 : Fin 1) * 128 + 1 * (y 0).val = (y 0).val; omega
  funext j
  refine entry_of_rowBlk (bias_relu_block (iblk1 V c 0 t) (iblk1 V c 1 t) (V c main_v45) (V c main_arg4) (t.val * 10000) hrow hside) j
    (((cfg1.win 2).blk t).view.emb j) ?_ ?_
  · show win1_2.index t (0 : Fin 2) * 10000 + 1 * (j 0).val = t.val * 10000 + (j 0).val; omega
  · show win1_2.index t (1 : Fin 2) * 128 + 1 * (j 1).val = (j 1).val; omega

/-- An index of the array is in point t's block iff each coordinate is in the block's range on its axis. -/
theorem bias_relu_mem_block (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v46).slice (win1_2.rect t)).set ↔ _
  rw [View.set_slice_whole, Rect.mem_set_unit]
  exact Iff.rfl

/-- Every row of the array is in the block of the point numbered row / 10000. -/
theorem bias_relu_cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 10 := N_1
  refine ⟨⟨(i 0).val / 10000, by rw [hN]; omega⟩, flush1_2 _, ?_⟩
  rw [bias_relu_mem_block]
  obtain ⟨-, -, -, o0, o1⟩ := bias_relu_index ⟨(i 0).val / 10000, by rw [hN]; omega⟩
  intro a
  match a with
  | ⟨0, _⟩ => show win1_2.index _ (0 : Fin 2) * 10000 ≤ (i 0).val ∧ (i 0).val < win1_2.index _ (0 : Fin 2) * 10000 + 10000; rw [o0]; show (i 0).val / 10000 * 10000 ≤ _ ∧ _ < (i 0).val / 10000 * 10000 + 10000; omega
  | ⟨1, _⟩ => show win1_2.index _ (1 : Fin 2) * 128 ≤ (i 1).val ∧ (i 1).val < win1_2.index _ (1 : Fin 2) * 128 + 128; rw [o1]; omega

/-- After the kernel its output array holds the aggregated matrix with the first bias row added to every row and the maximum with 0 taken, whatever the contents V it was entered from. -/
theorem bias_relu_final (c : Dev nD) : (dat1 V c).arrAt 2 cfg1.N = biasRelu (V c main_v45) (V c main_arg4) :=
  (dat1 V c).arrAt_eq_of_cover 2 _ (fun t _ => bias_relu_flushed V c t) (bias_relu_cover)

end Cert.GcnValue

end
-- ==== Proof.RegionDenseSecond.lean ====
/-
  The second dense product kernel, as one function of whole arrays.

  As for the first product: point t multiplies rows 10000·t … of the rectified matrix (narrowed) by the whole second
  weight matrix (narrowed) into a zero accumulator; at the extended reals that is the block of rows of the whole
  product, and the ten blocks tile the output.
-/
import proofs.«170599_j18631568130050_1_alg».proof.Proof.Gen.KernelIdeal.Frame
import proofs.«170599_j18631568130050_1_alg».proof.Proof.Stages
import proofs.«170599_j18631568130050_1_alg».proof.Proof.BlockEntry
import Idealize.ShloMosaic.Lib.Pipeline.Value

set_option maxRecDepth 16384

noncomputable section

namespace Cert.GcnValue

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.DenseLayer

variable (V : (c : Dev nD) → (b : Ref sig .tc) → Buf (Elt Ideal) ((c : Thread nD τ).loc b))

/-- On a block of rows the body's product (both factors narrowed, accumulated into zero) is the block of rows of the
    whole product. -/
theorem dense_second_block (x0 : Vec Ideal S10000x128 .f32) (x1 : Vec Ideal S128x40 .f32)
    (X : FVec Ideal Cert.ReferenceIdeal.S100000x128 .f32) (Wt : FVec Ideal Cert.ReferenceIdeal.S128x40 .f32) (off : Nat)
    (h0 : RowBlk off x0 X) (h1 : x1 = Wt) : RowBlk off (k2_pay1 x0 x1) (dense2 X Wt) := by
  subst h1
  unfold k2_pay1 dense2
  exact RowBlk.matmul (Plain.of_fields _ rfl rfl rfl rfl rfl rfl) (Plain.of_fields _ rfl rfl rfl rfl rfl rfl) (h0.castSelf _) x1 _ _

/-- The printed index maps over the grid: the row windows sit at block row t, column block 0; the side window is
    the whole of its array at every point. -/
theorem dense_second_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point t writes back is block t of the product of the rectified matrix and the second weight matrix. -/
theorem dense_second_flushed (c : Dev nD) (t : Fin cfg2.N) :
    (dat2 V c).flushed 2 t = ((cfg2.win 2).blk t).view.read (Elt Ideal) (dense2 (V c main_v46) (V c main_arg5)) := by
  show (cfg2.win 2).cut (grid2.coords t) ((dat2 V c).after 2 t) = _
  rw [after2_2]
  unfold out2_2
  rw [View.canon_unit_zero zero2]
  simp only [View.ld_unit_zero (S := S10000x128) zero2, View.ld_unit_zero (S := S128x40) zero2]
  obtain ⟨r0, r1, s0, s1, o0, o1⟩ := dense_second_index t
  have hrow : RowBlk (t.val * 10000) (iblk2 V c 0 t) (V c main_v46) := fun r hr k => by
    show V c main_v46 (((cfg2.win 0).blk t).view.emb (ix2 r k)) = V c main_v46 (ix2 ⟨t.val * 10000 + r.val, hr⟩ k)
    refine congrArg (V c main_v46) (funext fun a => Fin.ext ?_)
    match a with
    | ⟨0, _⟩ => show win2_0.index t (0 : Fin 2) * 10000 + 1 * r.val = t.val * 10000 + r.val; omega
    | ⟨1, _⟩ => show win2_0.index t (1 : Fin 2) * 128 + 1 * k.val = k.val; omega
  have hside : iblk2 V c 1 t = V c main_arg5 := funext fun y => by
    show V c main_arg5 (((cfg2.win 1).blk t).view.emb y) = V c main_arg5 y
    refine congrArg (V c main_arg5) (funext fun a => Fin.ext ?_)
    match a with
    | ⟨0, _⟩ => show win2_1.index t (0 : Fin 2) * 128 + 1 * (y 0).val = (y 0).val; omega
    | ⟨1, _⟩ => show win2_1.index t (1 : Fin 2) * 40 + 1 * (y 1).val = (y 1).val; omega
  funext j
  refine entry_of_rowBlk (dense_second_block (iblk2 V c 0 t) (iblk2 V c 1 t) (V c main_v46) (V c main_arg5) (t.val * 10000) hrow hside) j
    (((cfg2.win 2).blk t).view.emb j) ?_ ?_
  · show win2_2.index t (0 : Fin 2) * 10000 + 1 * (j 0).val = t.val * 10000 + (j 0).val; omega
  · show win2_2.index t (1 : Fin 2) * 40 + 1 * (j 1).val = (j 1).val; omega

/-- An index of the array is in point t's block iff each coordinate is in the block's range on its axis. -/
theorem dense_second_mem_block (t : Fin cfg2.N) (i : S100000x40.Idx) :
    i ∈ ((cfg2.win 2).blk t).view.set ↔ ∀ a : Fin 2, win2_2.index t a * S10000x40.size a ≤ (i a).val ∧ (i a).val < win2_2.index t a * S10000x40.size a + S10000x40.size a := by
  show i ∈ ((View.whole main_v47).slice (win2_2.rect t)).set ↔ _
  rw [View.set_slice_whole, Rect.mem_set_unit]
  exact Iff.rfl

/-- Every row of the array is in the block of the point numbered row / 10000. -/
theorem dense_second_cover (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  have hN : cfg2.N = 10 := N_2
  refine ⟨⟨(i 0).val / 10000, by rw [hN]; omega⟩, flush2_2 _, ?_⟩
  rw [dense_second_mem_block]
  obtain ⟨-, -, -, -, o0, o1⟩ := dense_second_index ⟨(i 0).val / 10000, by rw [hN]; omega⟩
  intro a
  match a with
  | ⟨0, _⟩ => show win2_2.index _ (0 : Fin 2) * 10000 ≤ (i 0).val ∧ (i 0).val < win2_2.index _ (0 : Fin 2) * 10000 + 10000; rw [o0]; show (i 0).val / 10000 * 10000 ≤ _ ∧ _ < (i 0).val / 10000 * 10000 + 10000; omega
  | ⟨1, _⟩ => show win2_2.index _ (1 : Fin 2) * 40 ≤ (i 1).val ∧ (i 1).val < win2_2.index _ (1 : Fin 2) * 40 + 40; rw [o1]; omega

/-- After the kernel its output array holds the product of the rectified matrix and the second weight matrix, whatever the contents V it was entered from. -/
theorem dense_second_final (c : Dev nD) : (dat2 V c).arrAt 2 cfg2.N = dense2 (V c main_v46) (V c main_arg5) :=
  (dat2 V c).arrAt_eq_of_cover 2 _ (fun t _ => dense_second_flushed V c t) (dense_second_cover)

end Cert.GcnValue

end
-- ==== Proof.LibKeepdimsColumn.lean ====
/-
  A per-row quantity carried back to a matrix's shape through a column.

  A reduction along the columns of an [a, b] matrix leaves a vector of a numbers, one per row. To combine it with the
  matrix again it is reshaped to an [a, 1] column and broadcast along the columns to [a, b]. Entry (p, q) of the
  result is the p-th number, whatever q: the reshape keeps the row-major position p, and the broadcast reads the
  column's only entry of row p. Stated for any extents a and b and any element type; nothing is computed.
-/
import Idealize.ShloMosaic.Lib.Pipeline.Value
import Idealize.ShloMosaic.Lib.ValueIdx

noncomputable section

namespace Cert.Lib.KeepdimsColumn

open Idealize.ShloMosaic Idealize.ShloMosaic.ValueIdx

/-- The [a] → [a, 1] reshape, entry (p, 0): the p-th number. -/
theorem column_cast_at {α : Type} {a : Nat} (u : (⟨1, ![a]⟩ : Shape).Idx → α)
    (h : (⟨1, ![a]⟩ : Shape).ShapeCasts ⟨2, ![a, 1]⟩) (p : Fin a) :
    shapeCast ⟨2, ![a, 1]⟩ u h (ix2 (n0 := a) (n1 := 1) p ⟨0, Nat.one_pos⟩) = u (ix1 p) :=
  shapeCast_apply u h _ (ix1 p) (by
    rw [Shape.rowMajor_val_one, Shape.rowMajor_val_two]
    show p.val = p.val * 1 + 0
    omega)

/-- The [a, 1] → [a, b] broadcast, entry (p, q): the column's entry of row p. -/
theorem column_broadcast_at {α : Type} {a b : Nat} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 (n0 := a) (n1 := 1) p ⟨0, Nat.one_pos⟩) :=
  broadcastTo_apply v h (ix2 p q) _ (fun d => by
    match d with
    | ⟨0, _⟩ =>
      show p.val = if a = 1 then 0 else p.val
      split
      · have := p.isLt; omega
      · rfl
    | ⟨1, _⟩ =>
      show 0 = if (1 : Nat) = 1 then 0 else q.val
      rw [if_pos rfl])

/-- Both together: a vector of a numbers turned into a column and broadcast along the columns reads, at (p, q), the
    p-th number. -/
theorem column_at {α : Type} {a b : Nat} (u : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ u hc) hb (ix2 p q) = u (ix1 p) :=
  (column_broadcast_at _ hb p q).trans (column_cast_at u hc p)

end Cert.Lib.KeepdimsColumn

end
-- ==== Proof.LibOuterBlock.lean ====
/-
  Blocks of rows of a matrix built from one column and one row.

  A matrix of M rows and N columns whose entry (r, c) is made of the r-th number of a column and the c-th number of
  a row (an outer product, or any entrywise function of the two) is read here one block of rows at a time, in the
  same sense as for a dense layer: `RowBlk off xb X` says that `xb` is the block of `X` that starts at row `off`.

  * A column carried along the columns keeps the relation: inside a body the block's own column is broadcast to the
    block, on the host the whole column is broadcast to the whole matrix, and row `off + r` of the second is row `r`
    of the first.
  * A vector of n numbers made an n×1 column — by a reshape, which keeps the row-major position, or by a broadcast
    along a new trailing unit axis — is one and the same column.
  Stated for any extents; no finiteness is asked of any entry, nothing is computed.
-/
import proofs.«170599_j18631568130050_1_alg».proof.Proof.LibPlainRecord
import proofs.«170599_j18631568130050_1_alg».proof.Proof.LibKeepdimsColumn

noncomputable section

namespace Cert.Lib.DenseLayer

open Idealize.ShloMosaic Idealize.ShloMosaic.ValueIdx

/-- A column broadcast along the columns: the block of the broadcast is the broadcast of the block's column. -/
theorem RowBlk.col {Mb M N : Nat} {off : Nat} {vb : (⟨2, ![Mb, 1]⟩ : Shape).Idx → EReal}
    {V : (⟨2, ![M, 1]⟩ : Shape).Idx → EReal} (h : RowBlk off vb V)
    (hb : (⟨2, ![Mb, 1]⟩ : Shape).Broadcasts ⟨2, ![Mb, N]⟩)
    (hB : (⟨2, ![M, 1]⟩ : Shape).BroadcastsInDim ⟨2, ![M, N]⟩ ![0, 1]) :
    RowBlk off (broadcastTo ⟨2, ![Mb, N]⟩ vb hb) (broadcastInDim ⟨2, ![M, N]⟩ ![0, 1] hB V) := fun r hr c => by
  rw [Cert.Lib.KeepdimsColumn.column_broadcast_at vb hb r c,
    broadcastInDim_apply ![0, 1] hB V (ix2 ⟨off + r.val, hr⟩ c) (ix2 (n0 := M) (n1 := 1) ⟨off + r.val, hr⟩ ⟨0, Nat.one_pos⟩)
      (fun a => by
        match a with
        | ⟨0, _⟩ =>
          show off + r.val = if M = 1 then 0 else off + r.val
          split
          · omega
          · rfl
        | ⟨1, _⟩ =>
          show 0 = if (1 : Nat) = 1 then 0 else c.val
          rw [if_pos rfl])]
  exact h r hr ⟨0, Nat.one_pos⟩

/-- A vector of n entries made an n×1 column — by a reshape, or by a broadcast along a new trailing unit axis — is
    one and the same column. -/
theorem trailUnit_eq_bcast {α : Type} {n : Nat} (hn : n ≠ 1) (u : (⟨1, ![n]⟩ : Shape).Idx → α)
    (hs : (⟨1, ![n]⟩ : Shape).ShapeCasts ⟨2, ![n, 1]⟩) (hb : (⟨1, ![n]⟩ : Shape).BroadcastsInDim ⟨2, ![n, 1]⟩ ![0]) :
    shapeCast ⟨2, ![n, 1]⟩ u hs = broadcastInDim ⟨2, ![n, 1]⟩ ![0] hb u := funext fun j => by
  obtain ⟨p, q, rfl⟩ : ∃ (p : Fin n) (q : Fin 1), j = ix2 p q := ⟨j 0, j 1, eq_ix2 j⟩
  have hq : q = ⟨0, Nat.one_pos⟩ := Fin.ext (by have := q.isLt; omega)
  subst hq
  rw [Cert.Lib.KeepdimsColumn.column_cast_at u hs p,
    broadcastInDim_apply ![0] hb u (ix2 (n0 := n) (n1 := 1) p ⟨0, Nat.one_pos⟩) (ix1 p) (fun a => by
      match a with
      | ⟨0, _⟩ => exact (if_neg hn).symm)]

end Cert.Lib.DenseLayer

end
-- ==== Proof.LibRowNorm.lean ====
/-
  Blocks of rows of a matrix through the remaining entrywise and per-row operations of a normalised dense layer, at
  the extended reals.

  In the sense of the dense-layer relation — 'RowBlk off xb X' says that 'xb' is the block of rows of 'X' that
  starts at row 'off' — the relation is carried by

  * an entrywise quotient: the quotient taken inside a body and the one taken on the host are the same function
    of two extended reals;
  * a change of float format, which is the identity on extended reals, and a square root, likewise one function on
    both sides;
  * a matrix product whose left factor is used as it is and whose right factor is narrowed first;
  * the sum of each row, kept as a column: inside a body the sum along the columns of the block, reshaped from a
    vector to a column; on the host the sum along the columns of the whole matrix started from the constant zero,
    broadcast to a column. Row 'off + r' of the second is row 'r' of the first: both are the sum over the columns
    of the same entries, and the zero the host starts from adds nothing.

  No finiteness is asked of any entry.
-/
import proofs.«170599_j18631568130050_1_alg».proof.Proof.LibOuterBlock

noncomputable section

open scoped BigOperators

namespace Cert.Lib.DenseLayer

open Idealize.ShloMosaic Idealize.ShloMosaic.ValueIdx Cert.Lib.PlainDot

/-- Entrywise quotients of blocks of rows: the body's division and the host's are one function. -/
theorem RowBlk.div {Mb M K : Nat} {off : Nat} {a b : FVec Ideal ⟨2, ![Mb, K]⟩ .f32} {A B : FVec Ideal ⟨2, ![M, K]⟩ .f32}
    (ha : RowBlk off a A) (hb : RowBlk off b B) : RowBlk off (divf a b) (Host.divf A B) := fun r hr k => by
  show Ideal.div (a (ix2 r k)) (b (ix2 r k)) = Ideal.div (A (ix2 ⟨off + r.val, hr⟩ k)) (B (ix2 ⟨off + r.val, hr⟩ k))
  rw [ha r hr k, hb r hr k]

/-- Entrywise square roots of blocks of rows: the body's and the host's are one function. -/
theorem RowBlk.sqrt {Mb M K : Nat} {off : Nat} {a : FVec Ideal ⟨2, ![Mb, K]⟩ .f32} {A : FVec Ideal ⟨2, ![M, K]⟩ .f32}
    (ha : RowBlk off a A) : RowBlk off (Idealize.ShloMosaic.sqrt a) (Host.sqrt A) := fun r hr k => by
  show Ideal.sqrt (a (ix2 r k)) = Ideal.sqrt (A (ix2 ⟨off + r.val, hr⟩ k))
  rw [ha r hr k]

/-- A change of float format leaves a block of rows what it was. -/
theorem RowBlk.narrow {Mb M K : Nat} {off : Nat} {φ ψ : FTy} {a : FVec Ideal ⟨2, ![Mb, K]⟩ φ} {A : (⟨2, ![M, K]⟩ : Shape).Idx → EReal}
    (ha : RowBlk off a A) (h : ψ.bits < φ.bits) : RowBlk off (truncf ψ a h) A := fun r hr k => ha r hr k

/-- The matrix unit's product into the zero matrix of a block of rows, used as it is, with a narrowed right factor. -/
theorem RowBlk.matmulLeft {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh) {φ : FTy}
    {xb : FVec Ideal ⟨2, ![Mb, K]⟩ φ} {X : FVec Ideal ⟨2, ![M, K]⟩ .f32} (h : RowBlk off xb X)
    (w : FVec Ideal ⟨2, ![K, N]⟩ .f32) (h₂ : FTy.bf16.bits < FTy.f32.bits) :
    RowBlk off (Idealize.ShloMosaic.matmul db none xb (truncf .bf16 w h₂) (constant ⟨2, ![Mb, N]⟩ .f32 0x00000000#32))
      (Host.dotGeneral dh none X w) := fun r hr c => by
  refine (Ideal.matmul_constant_zero_apply db none xb (truncf .bf16 w h₂) (ix2 r c)).trans ?_
  rw [hh.dot_apply, contraction_sum db hb.rank hb.size hb.l0 hb.l1 hb.r0 hb.r1 xb (truncf .bf16 w h₂) r c]
  exact Finset.sum_congr rfl fun k _ => congrArg (· * w (ix2 k c)) (h r hr k)

/-- The source index over the reduced index r with coordinate k inserted on the columns' axis is (r, k). -/
theorem lift_cols {Mb N : Nat} (h : Shape.Reduces ⟨2, ![Mb, N]⟩ [1] ⟨1, ![Mb]⟩) (r : Fin Mb) (k : Fin N) :
    h.lift (ix1 r) k = ix2 r k := funext fun a => Fin.ext (by
  match a with
  | ⟨0, _⟩ => rfl
  | ⟨1, _⟩ => rfl)

/-- The sums of the rows, kept as a column. -/
theorem RowBlk.rowSum {Mb M N : Nat} {off : Nat} {a : FVec Ideal ⟨2, ![Mb, N]⟩ .f32} {A : FVec Ideal ⟨2, ![M, N]⟩ .f32}
    (ha : RowBlk off a A)
    (hr : Shape.Reduces ⟨2, ![Mb, N]⟩ [1] ⟨1, ![Mb]⟩) (hφ : FKind.Formats .f32)
    (hacc : (0x00000000#32 : BitVec FTy.f32.bits) = FKind.add.neutral .f32 hφ)
    (hc : (⟨1, ![Mb]⟩ : Shape).ShapeCasts ⟨2, ![Mb, 1]⟩)
    (hR' : Shape.ReducesTo ⟨2, ![M, N]⟩ [1] ⟨1, ![M]⟩) (hR : Shape.Reduces ⟨2, ![M, N]⟩ [1] ⟨1, ![M]⟩)
    (hu : 0 < (⟨0, ![]⟩ : Shape).numel) (hM : M ≠ 1)
    (hB : (⟨1, ![M]⟩ : Shape).BroadcastsInDim ⟨2, ![M, 1]⟩ ![0]) :
    RowBlk off (shapeCast ⟨2, ![Mb, 1]⟩ (multiReduction .add [1] ⟨1, ![Mb]⟩ a 0x00000000#32 hr hφ hacc) hc)
      (broadcastInDim ⟨2, ![M, 1]⟩ ![0] hB (Host.reduceAdd A (constant (F := Ideal) ⟨0, ![]⟩ .f32 0x00000000#32) hR' hu)) :=
  fun r hrow k => by
  have hk : k = ⟨0, Nat.one_pos⟩ := Fin.ext (by have := k.isLt; omega)
  subst hk
  rw [Cert.Lib.KeepdimsColumn.column_cast_at _ hc r,
    broadcastInDim_apply ![0] hB _ (ix2 (n0 := M) (n1 := 1) ⟨off + r.val, hrow⟩ ⟨0, Nat.one_pos⟩) (ix1 ⟨off + r.val, hrow⟩) (fun d => by
      match d with
      | ⟨0, _⟩ => exact (if_neg hM).symm),
    Ideal.multiReduction_add_single a _ hr hφ hacc (ix1 r)]
  show _ = Ideal.hostReduceAdd hR' A (Ideal.ofBits .f32 0x00000000#32) (ix1 ⟨off + r.val, hrow⟩)
  rw [Ideal.hostReduceAdd_single hR' hR, Ideal.ofBits_zero_f32, zero_add]
  refine Finset.sum_congr rfl fun q _ => ?_
  rw [lift_cols hr r q, lift_cols hR ⟨off + r.val, hrow⟩ q]
  exact ha r hrow q

end Cert.Lib.DenseLayer

end
-- ==== Proof.LibMaxReduce.lean ====
/-
  Maxima at the extended reals, for any shapes.

  A float maximum-reduction over ONE axis started from -inf (the word 0xFF800000), read at a reduced index, is the
  supremum over that axis's coordinates of the operand at the index with the coordinate put back. It rests on two
  small facts: the word 0xFF800000 denotes -inf, the least extended real, and a fold of max started from the least
  element over a whole finite range is the supremum over the range.
-/
import Idealize.ShloMosaic.PureOps.Ideal.Laws
import Idealize.ShloMosaic.PureOps.Reduce

noncomputable section

open scoped BigOperators

namespace Cert.Lib.MaxReduce

open Idealize.ShloMosaic

/-- The f32 word 0xFF800000 denotes -inf. -/
theorem ofBits_neg_inf_f32 : Ideal.ofBits .f32 0xFF800000#32 = (⊥ : EReal) := by
  simp [Ideal.ofBits, Ideal.ieee]

/-- A fold of max started from -inf over all of a finite index range is the supremum over the range. -/
theorem fold_max_bot_eq_iSup {K : Nat} (f : Fin K → EReal) :
    (Finset.univ : Finset (Fin K)).fold max (⊥ : EReal) f = ⨆ k, f k := by
  rw [← Finset.sup_univ_eq_iSup]
  rfl

/-- The host's one-operand reduce with a maximum body over one axis, its initial value the -inf constant, at reduced
    index j: the supremum over that axis's coordinates k of the operand at j with k put back (`h'` is the host's
    shape fact, `h` the lane form of the same fact, which names the index with the coordinate put back). -/
theorem hostMaxReduce_single {s t u : Shape} {a : Fin s.rank} (x : FVec Ideal s .f32) (h' : s.ReducesTo [a] t)
    (h : s.Reduces [a] t) (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu]
  show (Finset.univ : Finset (Fin (s.size a))).fold max (Ideal.ofBits .f32 0xFF800000#32) (fun k => x (h.lift j k)) = _
  rw [ofBits_neg_inf_f32]
  exact fold_max_bot_eq_iSup _

end Cert.Lib.MaxReduce

end
-- ==== Proof.LibMaxLane.lean ====
/-
  A lane maximum at the extended reals, for any shapes.

  A kernel's float maximum-reduction over ONE axis started from -inf (the word 0xFF800000), read at a reduced index,
  is the supremum over that axis's coordinates of the operand at the index with the coordinate put back: the mirror,
  for the lane reduction, of the host's maximum and of the lane minimum. It rests on the same two facts: the word
  0xFF800000 denotes -inf, and a fold of max started from the least element over a whole finite range is the supremum.
-/
import Idealize.ShloMosaic.PureOps.Ideal.Laws
import Idealize.ShloMosaic.PureOps.Reduce
import proofs.«170599_j18631568130050_1_alg».proof.Proof.LibMaxReduce

noncomputable section

open scoped BigOperators

namespace Cert.Lib.MaxLane

open Idealize.ShloMosaic

/-- A kernel's lane maximum over one axis started from -inf, at reduced index j: the supremum over that axis's
    coordinates k of the operand at j with k put back (`h.lift j k`). The accumulator's proof is taken as the
    printed program spells it. -/
theorem maxReduce_single {s t : Shape} {a : Fin s.rank} (src : FVec Ideal s .f32) (h : s.Reduces [a] t)
    (hφ : FKind.Formats .f32) (hacc : (0xFF800000#32 : BitVec 32) = FKind.maximumf.neutral .f32 hφ) (j : t.Idx) :
    multiReduction .maximumf [a] t src 0xFF800000#32 h hφ hacc j = ⨆ k : Fin (s.size a), src (h.lift j k) := by
  refine (Ideal.multiReduction_maximumf_single src 0xFF800000#32 h hφ hacc j).trans ?_
  show (Finset.univ : Finset (Fin (s.size a))).fold max (Ideal.ofBits .f32 0xFF800000#32) (fun k => src (h.lift j k)) = _
  rw [Cert.Lib.MaxReduce.ofBits_neg_inf_f32]
  exact Cert.Lib.MaxReduce.fold_max_bot_eq_iSup _

end Cert.Lib.MaxLane

end
-- ==== Proof.LibRowSoftmax.lean ====
/-
  Blocks of rows of a matrix through the operations of a row-wise log-softmax and of a three-term sum, at the extended
  reals.

  In the sense of the dense-layer relation — 'RowBlk off xb X' says that 'xb' is the block of rows of 'X' that starts at
  row 'off' — the relation is carried by
  * a sum of three matrices taken in two different groupings: addition of extended reals is commutative and associative
    with no finiteness asked, so (a + b) + c on the block is the block of (A + C) + B;
  * an entrywise difference, exponential and logarithm: the body's and the host's are one function of extended reals;
  * the maximum of each row, kept as a column: inside a body the maximum along the columns of the block started from
    -inf, reshaped from a vector to a column; on the host the maximum along the columns of the whole matrix started from
    the constant -inf, joined once more with a vector of -inf (which changes nothing), broadcast to a column. Row
    'off + r' of the second is row 'r' of the first: both are the supremum over the columns of the same entries.
  No finiteness is asked of any entry.
-/
import proofs.«170599_j18631568130050_1_alg».proof.Proof.LibRowNorm
import proofs.«170599_j18631568130050_1_alg».proof.Proof.LibMaxLane

noncomputable section

open scoped BigOperators

namespace Cert.Lib.DenseLayer

open Idealize.ShloMosaic Idealize.ShloMosaic.ValueIdx Cert.Lib.PlainDot

/-- Three summands, grouped (a + b) + c on the block and (A + C) + B on the whole matrix. -/
theorem RowBlk.add3 {Mb M K : Nat} {off : Nat} {a b c : FVec Ideal ⟨2, ![Mb, K]⟩ .f32} {A B C : FVec Ideal ⟨2, ![M, K]⟩ .f32}
    (ha : RowBlk off a A) (hb : RowBlk off b B) (hc : RowBlk off c C) :
    RowBlk off (addf (addf a b) c) (addf (addf A C) B) := fun r hr k => by
  rw [addf_apply, addf_apply, addf_apply, addf_apply, ha r hr k, hb r hr k, hc r hr k]
  exact add_right_comm _ _ _

/-- Entrywise differences of blocks of rows. -/
theorem RowBlk.sub {Mb M K : Nat} {off : Nat} {a b : FVec Ideal ⟨2, ![Mb, K]⟩ .f32} {A B : FVec Ideal ⟨2, ![M, K]⟩ .f32}
    (ha : RowBlk off a A) (hb : RowBlk off b B) : RowBlk off (subf a b) (subf A B) := fun r hr k => by
  rw [subf_apply, subf_apply, ha r hr k, hb r hr k]

/-- Entrywise exponentials of blocks of rows: the body's and the host's are one function. -/
theorem RowBlk.exp {Mb M K : Nat} {off : Nat} {a : FVec Ideal ⟨2, ![Mb, K]⟩ .f32} {A : FVec Ideal ⟨2, ![M, K]⟩ .f32}
    (ha : RowBlk off a A) : RowBlk off (Idealize.ShloMosaic.exp a) (Host.exp A) := fun r hr k => by
  show Ideal.exp (a (ix2 r k)) = Ideal.exp (A (ix2 ⟨off + r.val, hr⟩ k))
  rw [ha r hr k]

/-- Entrywise logarithms of blocks of rows: the body's and the host's are one function. -/
theorem RowBlk.log {Mb M K : Nat} {off : Nat} {a : FVec Ideal ⟨2, ![Mb, K]⟩ .f32} {A : FVec Ideal ⟨2, ![M, K]⟩ .f32}
    (ha : RowBlk off a A) : RowBlk off (Idealize.ShloMosaic.log a) (Host.log A) := fun r hr k => by
  show Ideal.log (a (ix2 r k)) = Ideal.log (A (ix2 ⟨off + r.val, hr⟩ k))
  rw [ha r hr k]

/-- The maxima of the rows, kept as a column. -/
theorem RowBlk.rowMax {Mb M N : Nat} {off : Nat} {a : FVec Ideal ⟨2, ![Mb, N]⟩ .f32} {A : FVec Ideal ⟨2, ![M, N]⟩ .f32}
    (ha : RowBlk off a A)
    (hr : Shape.Reduces ⟨2, ![Mb, N]⟩ [1] ⟨1, ![Mb]⟩) (hφ : FKind.Formats .f32)
    (hacc : (0xFF800000#32 : BitVec 32) = FKind.maximumf.neutral .f32 hφ)
    (hc : (⟨1, ![Mb]⟩ : Shape).ShapeCasts ⟨2, ![Mb, 1]⟩)
    (hR' : Shape.ReducesTo ⟨2, ![M, N]⟩ [1] ⟨1, ![M]⟩) (hR : Shape.Reduces ⟨2, ![M, N]⟩ [1] ⟨1, ![M]⟩)
    (hu : 0 < (⟨0, ![]⟩ : Shape).numel) (hM : M ≠ 1)
    (hS : (⟨0, ![]⟩ : Shape).BroadcastsInDim ⟨1, ![M]⟩ ![])
    (hB : (⟨1, ![M]⟩ : Shape).BroadcastsInDim ⟨2, ![M, 1]⟩ ![0]) :
    RowBlk off (shapeCast ⟨2, ![Mb, 1]⟩ (multiReduction .maximumf [1] ⟨1, ![Mb]⟩ a 0xFF800000#32 hr hφ hacc) hc)
      (broadcastInDim ⟨2, ![M, 1]⟩ ![0] hB
        (maximumf (broadcastInDim ⟨1, ![M]⟩ ![] hS (constant (F := Ideal) ⟨0, ![]⟩ .f32 0xFF800000#32))
          (Host.reduce FloatOps.maximumf A (constant (F := Ideal) ⟨0, ![]⟩ .f32 0xFF800000#32) hR' hu))) :=
  fun r hrow k => by
  have hk : k = ⟨0, Nat.one_pos⟩ := Fin.ext (by have := k.isLt; omega)
  subst hk
  rw [Cert.Lib.KeepdimsColumn.column_cast_at _ hc r,
    broadcastInDim_apply ![0] hB _ (ix2 (n0 := M) (n1 := 1) ⟨off + r.val, hrow⟩ ⟨0, Nat.one_pos⟩) (ix1 ⟨off + r.val, hrow⟩) (fun d => by
      match d with
      | ⟨0, _⟩ => exact (if_neg hM).symm),
    Cert.Lib.MaxLane.maxReduce_single a hr hφ hacc (ix1 r), maximumf_apply,
    Cert.Lib.MaxReduce.hostMaxReduce_single A hR' hR hu (ix1 ⟨off + r.val, hrow⟩)]
  have hbot : broadcastInDim ⟨1, ![M]⟩ ![] hS (constant (F := Ideal) ⟨0, ![]⟩ .f32 0xFF800000#32) (ix1 ⟨off + r.val, hrow⟩) = (⊥ : EReal) := by
    rw [broadcastInDim_apply (s := ⟨0, ![]⟩) ![] hS (constant (F := Ideal) ⟨0, ![]⟩ .f32 0xFF800000#32) (ix1 ⟨off + r.val, hrow⟩)
      (fun d => d.elim0) (fun d => d.elim0), constant_apply]
    exact Cert.Lib.MaxReduce.ofBits_neg_inf_f32
  rw [hbot, max_eq_right bot_le]
  refine iSup_congr fun q => ?_
  rw [lift_cols hr r q, lift_cols hR ⟨off + r.val, hrow⟩ q]
  exact ha r hrow q

end Cert.Lib.DenseLayer

end
-- ==== Proof.RegionBiasLogSoftmax.lean ====
/-
  The bias-and-log-softmax kernel, as one function of whole arrays.

  Point t of its ten grid points loads rows 10000·t … of the aggregated 40-column matrix and the whole bias vector, adds
  the bias to every row, subtracts from each row its maximum, and subtracts again the logarithm of the sum of the
  exponentials of those differences. Every step is entrywise or reads one row at a time, so the stored block is that
  block of rows of the whole matrix's biased log-softmax; the blocks tile the output.
-/
import proofs.«170599_j18631568130050_1_alg».proof.Proof.Gen.KernelIdeal.Frame
import proofs.«170599_j18631568130050_1_alg».proof.Proof.Stages
import proofs.«170599_j18631568130050_1_alg».proof.Proof.BlockEntry
import proofs.«170599_j18631568130050_1_alg».proof.Proof.LibRowSoftmax
import Idealize.ShloMosaic.Lib.Pipeline.Value

set_option maxRecDepth 16384

noncomputable section

namespace Cert.GcnValue

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.DenseLayer

variable (V : (c : Dev nD) → (b : Ref sig .tc) → Buf (Elt Ideal) ((c : Thread nD τ).loc b))

/-- The columns of an [M, 40] matrix reduce to a vector of M numbers: the lane form of the host's shape fact. -/
theorem reduces_rows : Shape.Reduces Cert.ReferenceIdeal.S100000x40 [1] Cert.ReferenceIdeal.S100000 := by decide

/-- On a block of rows the body's log-softmax of the biased rows is the block of rows of the whole matrix's: the bias
    is added row by row, a row's maximum and the sum of a row's exponentials depend on that row alone, and the
    differences, exponentials and logarithms are entrywise. -/
theorem bias_logsoftmax_block (x0 : Vec Ideal S10000x40 .f32) (x1 : Vec Ideal S40 .f32)
    (X : FVec Ideal Cert.ReferenceIdeal.S100000x40 .f32) (B : FVec Ideal Cert.ReferenceIdeal.S40 .f32) (off : Nat)
    (h0 : RowBlk off x0 X) (h1 : x1 = B) : RowBlk off (k3_pay1 x0 x1) (biasLogSoftmax X B) := by
  subst h1
  unfold k3_pay1 biasLogSoftmax minusLogSumExp shifted40 biased40
  have hv5 : RowBlk off (addf (shapeCast S10000x40 x0 Facts₀.shapeCasts_S10000x40_S10000x40)
        (broadcastTo S10000x40 (shapeCast S1x40 x1 Facts₀.shapeCasts_S40_S1x40) Facts₀.broadcasts_S1x40_S10000x40) : FVec Ideal S10000x40 .f32)
      (addf X (broadcastInDim Cert.ReferenceIdeal.S100000x40 ![0, 1] Cert.ReferenceIdeal.Facts₀.bcast_S1x40_S100000x40_0_1
        (broadcastInDim Cert.ReferenceIdeal.S1x40 ![1] Cert.ReferenceIdeal.Facts₀.bcast_S40_S1x40_1 x1))) := by
    refine RowBlk.add (h0.castSelf _) ?_
    rw [addUnit_eq_bcast (by decide) x1 _ Cert.ReferenceIdeal.Facts₀.bcast_S40_S1x40_1]
    exact RowBlk.bias _ _ _
  have hmax := RowBlk.rowMax hv5 Facts₀.reduces_S10000x40_S10000 (.inl rfl) rfl Facts₀.shapeCasts_S10000_S10000x1
    Cert.ReferenceIdeal.Facts₀.reducesTo_S100000x40_S100000_d1 reduces_rows Cert.ReferenceIdeal.Facts₀.h_S_ (by decide)
    Cert.ReferenceIdeal.Facts₀.bcast_S_S100000 Cert.ReferenceIdeal.Facts₀.bcast_S100000_S100000x1_0
  have hv9 := RowBlk.sub hv5 (RowBlk.col hmax Facts₀.broadcasts_S10000x1_S10000x40 Cert.ReferenceIdeal.Facts₀.bcast_S100000x1_S100000x40_0_1)
  have hsum := RowBlk.rowSum (RowBlk.exp hv9) Facts₀.reduces_S10000x40_S10000 (.inl rfl) rfl Facts₀.shapeCasts_S10000_S10000x1
    Cert.ReferenceIdeal.Facts₀.reducesTo_S100000x40_S100000_d1 reduces_rows Cert.ReferenceIdeal.Facts₀.h_S_ (by decide)
    Cert.ReferenceIdeal.Facts₀.bcast_S100000_S100000x1_0
  exact RowBlk.sub hv9 (RowBlk.col (RowBlk.log hsum) Facts₀.broadcasts_S10000x1_S10000x40 Cert.ReferenceIdeal.Facts₀.bcast_S100000x1_S100000x40_0_1)

/-- The printed index maps over the grid: the row windows sit at block row t, column block 0; the side window is
    the whole of its array at every point. -/
theorem bias_logsoftmax_index : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- What grid point t writes back is block t of the row-wise log-softmax of the aggregated matrix with the second bias row added to every row. -/
theorem bias_logsoftmax_flushed (c : Dev nD) (t : Fin cfg3.N) :
    (dat3 V c).flushed 2 t = ((cfg3.win 2).blk t).view.read (Elt Ideal) (biasLogSoftmax (V c main_v60) (V c main_arg6)) := by
  show (cfg3.win 2).cut (grid3.coords t) ((dat3 V c).after 2 t) = _
  rw [after3_2]
  unfold out3_2
  rw [View.canon_unit_zero zero2]
  simp only [View.ld_unit_zero (S := S10000x40) zero2, View.ld_unit_zero (S := S40) zero1]
  obtain ⟨r0, r1, s0, o0, o1⟩ := bias_logsoftmax_index t
  have hrow : RowBlk (t.val * 10000) (iblk3 V c 0 t) (V c main_v60) := fun r hr k => by
    show V c main_v60 (((cfg3.win 0).blk t).view.emb (ix2 r k)) = V c main_v60 (ix2 ⟨t.val * 10000 + r.val, hr⟩ k)
    refine congrArg (V c main_v60) (funext fun a => Fin.ext ?_)
    match a with
    | ⟨0, _⟩ => show win3_0.index t (0 : Fin 2) * 10000 + 1 * r.val = t.val * 10000 + r.val; omega
    | ⟨1, _⟩ => show win3_0.index t (1 : Fin 2) * 40 + 1 * k.val = k.val; omega
  have hside : iblk3 V c 1 t = V c main_arg6 := funext fun y => by
    show V c main_arg6 (((cfg3.win 1).blk t).view.emb y) = V c main_arg6 y
    refine congrArg (V c main_arg6) (funext fun a => Fin.ext ?_)
    match a with
    | ⟨0, _⟩ => show win3_1.index t (0 : Fin 1) * 40 + 1 * (y 0).val = (y 0).val; omega
  funext j
  refine entry_of_rowBlk (bias_logsoftmax_block (iblk3 V c 0 t) (iblk3 V c 1 t) (V c main_v60) (V c main_arg6) (t.val * 10000) hrow hside) j
    (((cfg3.win 2).blk t).view.emb j) ?_ ?_
  · show win3_2.index t (0 : Fin 2) * 10000 + 1 * (j 0).val = t.val * 10000 + (j 0).val; omega
  · show win3_2.index t (1 : Fin 2) * 40 + 1 * (j 1).val = (j 1).val; omega

/-- An index of the array is in point t's block iff each coordinate is in the block's range on its axis. -/
theorem bias_logsoftmax_mem_block (t : Fin cfg3.N) (i : S100000x40.Idx) :
    i ∈ ((cfg3.win 2).blk t).view.set ↔ ∀ a : Fin 2, win3_2.index t a * S10000x40.size a ≤ (i a).val ∧ (i a).val < win3_2.index t a * S10000x40.size a + S10000x40.size a := by
  show i ∈ ((View.whole main_v61).slice (win3_2.rect t)).set ↔ _
  rw [View.set_slice_whole, Rect.mem_set_unit]
  exact Iff.rfl

/-- Every row of the array is in the block of the point numbered row / 10000. -/
theorem bias_logsoftmax_cover (i : S100000x40.Idx) : ∃ t : Fin cfg3.N, (cfg3.win 2).flush t = true ∧ i ∈ ((cfg3.win 2).blk t).view.set := by
  have hi0 : (i 0).val < 100000 := (i 0).isLt
  have hi1 : (i 1).val < 40 := (i 1).isLt
  have hN : cfg3.N = 10 := N_3
  refine ⟨⟨(i 0).val / 10000, by rw [hN]; omega⟩, flush3_2 _, ?_⟩
  rw [bias_logsoftmax_mem_block]
  obtain ⟨-, -, -, o0, o1⟩ := bias_logsoftmax_index ⟨(i 0).val / 10000, by rw [hN]; omega⟩
  intro a
  match a with
  | ⟨0, _⟩ => show win3_2.index _ (0 : Fin 2) * 10000 ≤ (i 0).val ∧ (i 0).val < win3_2.index _ (0 : Fin 2) * 10000 + 10000; rw [o0]; show (i 0).val / 10000 * 10000 ≤ _ ∧ _ < (i 0).val / 10000 * 10000 + 10000; omega
  | ⟨1, _⟩ => show win3_2.index _ (1 : Fin 2) * 40 ≤ (i 1).val ∧ (i 1).val < win3_2.index _ (1 : Fin 2) * 40 + 40; rw [o1]; omega

/-- After the kernel its output array holds the row-wise log-softmax of the aggregated matrix with the second bias row added to every row, whatever the contents V it was entered from. -/
theorem bias_logsoftmax_final (c : Dev nD) : (dat3 V c).arrAt 2 cfg3.N = biasLogSoftmax (V c main_v60) (V c main_arg6) :=
  (dat3 V c).arrAt_eq_of_cover 2 _ (fun t _ => bias_logsoftmax_flushed V c t) (bias_logsoftmax_cover)

end Cert.GcnValue

end
-- ==== Proof.KernelValue.lean ====
/-
  What the idealized kernel's result array holds when @main returns, as a function of the arguments.

  W0 … W9 are the buffer contents at the boundaries between @main's nine segments. Walking forward:
  * after the three normalisation stretches (W3) the two lists hold the sources and targets with the self-loops appended
    and the norm's buffer holds the symmetric edge weights, functions of the edge table and the edge weights; the other
    arguments are untouched;
  * the first product kernel leaves the product of the node features and the first weight matrix (W4) and touches no
    other buffer; the next stretch aggregates it over the edges (W5);
  * the bias-and-rectifier kernel (W6) and the second product kernel (W7) each leave their whole-array function of what
    they found; the next stretch aggregates the second product (W8);
  * the last kernel leaves the biased log-softmax (W9).
  A buffer a segment does not write keeps its contents across it, which is how the lists, the norm and the later
  arguments reach the segments that read them. Composed, the result array holds the specification's 'gcn' of the seven
  arguments as launched.
-/
import proofs.«170599_j18631568130050_1_alg».proof.Proof.KernelRun
import proofs.«170599_j18631568130050_1_alg».proof.Proof.KernelHostNorm
import proofs.«170599_j18631568130050_1_alg».proof.Proof.KernelHostAggregate
import proofs.«170599_j18631568130050_1_alg».proof.Proof.RegionDenseFirst
import proofs.«170599_j18631568130050_1_alg».proof.Proof.RegionBiasRelu
import proofs.«170599_j18631568130050_1_alg».proof.Proof.RegionDenseSecond
import proofs.«170599_j18631568130050_1_alg».proof.Proof.RegionBiasLogSoftmax

set_option maxRecDepth 16384

noncomputable section

namespace Cert.GcnValue

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## After the normalisation stretches -/

theorem at3_sources : (W3 m ρ c (Proc.devRef .tc main_v5) : IVec S1700000 32) = sources (m ((c.tc : Thread nD τ).loc main_arg1)) := KernelHost.norm_sources (W0 m ρ c)
theorem at3_targets : (W3 m ρ c (Proc.devRef .tc main_v6) : IVec S1700000 32) = targets (m ((c.tc : Thread nD τ).loc main_arg1)) := KernelHost.norm_targets (W0 m ρ c)
theorem at3_norm : (W3 m ρ c (Proc.devRef .tc main_v31) : FVec Ideal S1700000 .f32) = edgeNorm (m ((c.tc : Thread nD τ).loc main_arg1)) (m ((c.tc : Thread nD τ).loc main_arg2)) := KernelHost.norm_weights (W0 m ρ c)
theorem at3_arg0 : (W3 m ρ c (Proc.devRef .tc main_arg0) : FVec Ideal S100000x256 .f32) = m ((c.tc : Thread nD τ).loc main_arg0) := KernelHost.norm_keeps_main_arg0 (W0 m ρ c)
theorem at3_arg3 : (W3 m ρ c (Proc.devRef .tc main_arg3) : FVec Ideal S256x128 .f32) = m ((c.tc : Thread nD τ).loc main_arg3) := KernelHost.norm_keeps_main_arg3 (W0 m ρ c)
theorem at3_arg4 : (W3 m ρ c (Proc.devRef .tc main_arg4) : FVec Ideal S128 .f32) = m ((c.tc : Thread nD τ).loc main_arg4) := KernelHost.norm_keeps_main_arg4 (W0 m ρ c)
theorem at3_arg5 : (W3 m ρ c (Proc.devRef .tc main_arg5) : FVec Ideal S128x40 .f32) = m ((c.tc : Thread nD τ).loc main_arg5) := KernelHost.norm_keeps_main_arg5 (W0 m ρ c)
theorem at3_arg6 : (W3 m ρ c (Proc.devRef .tc main_arg6) : FVec Ideal S40 .f32) = m ((c.tc : Thread nD τ).loc main_arg6) := KernelHost.norm_keeps_main_arg6 (W0 m ρ c)

/-! ## After the first product kernel -/

theorem at4_product : (W4 m ρ c (Proc.devRef .tc main_v32) : FVec Ideal S100000x128 .f32) = dense1 (W3 m ρ c (Proc.devRef .tc main_arg0)) (W3 m ρ c (Proc.devRef .tc main_arg3)) :=
  (W4_arr m ρ c 2).trans (dense_first_final (V3 m ρ) c)
theorem at4_main_v5 : (W4 m ρ c (Proc.devRef .tc main_v5) : IVec S1700000 32) = W3 m ρ c (Proc.devRef .tc main_v5) := W4_of_ne m ρ c main_v5 (by decide)
theorem at4_main_v6 : (W4 m ρ c (Proc.devRef .tc main_v6) : IVec S1700000 32) = W3 m ρ c (Proc.devRef .tc main_v6) := W4_of_ne m ρ c main_v6 (by decide)
theorem at4_main_v31 : (W4 m ρ c (Proc.devRef .tc main_v31) : FVec Ideal S1700000 .f32) = W3 m ρ c (Proc.devRef .tc main_v31) := W4_of_ne m ρ c main_v31 (by decide)
theorem at4_main_arg4 : (W4 m ρ c (Proc.devRef .tc main_arg4) : FVec Ideal S128 .f32) = W3 m ρ c (Proc.devRef .tc main_arg4) := W4_of_ne m ρ c main_arg4 (by decide)
theorem at4_main_arg5 : (W4 m ρ c (Proc.devRef .tc main_arg5) : FVec Ideal S128x40 .f32) = W3 m ρ c (Proc.devRef .tc main_arg5) := W4_of_ne m ρ c main_arg5 (by decide)
theorem at4_main_arg6 : (W4 m ρ c (Proc.devRef .tc main_arg6) : FVec Ideal S40 .f32) = W3 m ρ c (Proc.devRef .tc main_arg6) := W4_of_ne m ρ c main_arg6 (by decide)

/-! ## After the first aggregation stretch -/

theorem at5_aggregate : (W5 m ρ c (Proc.devRef .tc main_v45) : FVec Ideal S100000x128 .f32)
    = aggregate128 (W4 m ρ c (Proc.devRef .tc main_v32)) (W4 m ρ c (Proc.devRef .tc main_v5)) (W4 m ρ c (Proc.devRef .tc main_v6)) (W4 m ρ c (Proc.devRef .tc main_v31)) := KernelHost.aggregate_first (W4 m ρ c)
theorem at5_main_v5 : (W5 m ρ c (Proc.devRef .tc main_v5) : IVec S1700000 32) = W4 m ρ c (Proc.devRef .tc main_v5) := KernelHost.first_keeps_main_v5 (W4 m ρ c)
theorem at5_main_v6 : (W5 m ρ c (Proc.devRef .tc main_v6) : IVec S1700000 32) = W4 m ρ c (Proc.devRef .tc main_v6) := KernelHost.first_keeps_main_v6 (W4 m ρ c)
theorem at5_main_v31 : (W5 m ρ c (Proc.devRef .tc main_v31) : FVec Ideal S1700000 .f32) = W4 m ρ c (Proc.devRef .tc main_v31) := KernelHost.first_keeps_main_v31 (W4 m ρ c)
theorem at5_main_arg4 : (W5 m ρ c (Proc.devRef .tc main_arg4) : FVec Ideal S128 .f32) = W4 m ρ c (Proc.devRef .tc main_arg4) := KernelHost.first_keeps_main_arg4 (W4 m ρ c)
theorem at5_main_arg5 : (W5 m ρ c (Proc.devRef .tc main_arg5) : FVec Ideal S128x40 .f32) = W4 m ρ c (Proc.devRef .tc main_arg5) := KernelHost.first_keeps_main_arg5 (W4 m ρ c)
theorem at5_main_arg6 : (W5 m ρ c (Proc.devRef .tc main_arg6) : FVec Ideal S40 .f32) = W4 m ρ c (Proc.devRef .tc main_arg6) := KernelHost.first_keeps_main_arg6 (W4 m ρ c)

/-! ## After the bias-and-rectifier kernel, and after the second product kernel -/

theorem at6_rectified : (W6 m ρ c (Proc.devRef .tc main_v46) : FVec Ideal S100000x128 .f32) = biasRelu (W5 m ρ c (Proc.devRef .tc main_v45)) (W5 m ρ c (Proc.devRef .tc main_arg4)) :=
  (W6_arr m ρ c 2).trans (bias_relu_final (V5 m ρ) c)
theorem at6_main_v5 : (W6 m ρ c (Proc.devRef .tc main_v5) : IVec S1700000 32) = W5 m ρ c (Proc.devRef .tc main_v5) := W6_of_ne m ρ c main_v5 (by decide)
theorem at6_main_v6 : (W6 m ρ c (Proc.devRef .tc main_v6) : IVec S1700000 32) = W5 m ρ c (Proc.devRef .tc main_v6) := W6_of_ne m ρ c main_v6 (by decide)
theorem at6_main_v31 : (W6 m ρ c (Proc.devRef .tc main_v31) : FVec Ideal S1700000 .f32) = W5 m ρ c (Proc.devRef .tc main_v31) := W6_of_ne m ρ c main_v31 (by decide)
theorem at6_main_arg5 : (W6 m ρ c (Proc.devRef .tc main_arg5) : FVec Ideal S128x40 .f32) = W5 m ρ c (Proc.devRef .tc main_arg5) := W6_of_ne m ρ c main_arg5 (by decide)
theorem at6_main_arg6 : (W6 m ρ c (Proc.devRef .tc main_arg6) : FVec Ideal S40 .f32) = W5 m ρ c (Proc.devRef .tc main_arg6) := W6_of_ne m ρ c main_arg6 (by decide)

theorem at7_product : (W7 m ρ c (Proc.devRef .tc main_v47) : FVec Ideal S100000x40 .f32) = dense2 (W6 m ρ c (Proc.devRef .tc main_v46)) (W6 m ρ c (Proc.devRef .tc main_arg5)) :=
  (W7_arr m ρ c 2).trans (dense_second_final (V6 m ρ) c)
theorem at7_main_v5 : (W7 m ρ c (Proc.devRef .tc main_v5) : IVec S1700000 32) = W6 m ρ c (Proc.devRef .tc main_v5) := W7_of_ne m ρ c main_v5 (by decide)
theorem at7_main_v6 : (W7 m ρ c (Proc.devRef .tc main_v6) : IVec S1700000 32) = W6 m ρ c (Proc.devRef .tc main_v6) := W7_of_ne m ρ c main_v6 (by decide)
theorem at7_main_v31 : (W7 m ρ c (Proc.devRef .tc main_v31) : FVec Ideal S1700000 .f32) = W6 m ρ c (Proc.devRef .tc main_v31) := W7_of_ne m ρ c main_v31 (by decide)
theorem at7_main_arg6 : (W7 m ρ c (Proc.devRef .tc main_arg6) : FVec Ideal S40 .f32) = W6 m ρ c (Proc.devRef .tc main_arg6) := W7_of_ne m ρ c main_arg6 (by decide)

/-! ## After the second aggregation stretch, and after the last kernel -/

theorem at8_aggregate : (W8 m ρ c (Proc.devRef .tc main_v60) : FVec Ideal S100000x40 .f32)
    = aggregate40 (W7 m ρ c (Proc.devRef .tc main_v47)) (W7 m ρ c (Proc.devRef .tc main_v5)) (W7 m ρ c (Proc.devRef .tc main_v6)) (W7 m ρ c (Proc.devRef .tc main_v31)) := KernelHost.aggregate_second (W7 m ρ c)
theorem at8_main_arg6 : (W8 m ρ c (Proc.devRef .tc main_arg6) : FVec Ideal S40 .f32) = W7 m ρ c (Proc.devRef .tc main_arg6) := KernelHost.second_keeps_main_arg6 (W7 m ρ c)

theorem at9_result : (W9 m ρ c (Proc.devRef .tc main_v61) : FVec Ideal S100000x40 .f32) = biasLogSoftmax (W8 m ρ c (Proc.devRef .tc main_v60)) (W8 m ρ c (Proc.devRef .tc main_arg6)) :=
  (W9_arr m ρ c 2).trans (bias_logsoftmax_final (V8 m ρ) c)

/-! ## Composed -/

/-- When @main returns, the result array holds the network's value at the seven arguments as launched. -/
theorem result_value : (W9 m ρ c (Proc.devRef .tc main_v61) : FVec Ideal S100000x40 .f32)
    = gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [at9_result, at8_aggregate, at8_main_arg6]
  rw [at7_product, at7_main_v5, at7_main_v6, at7_main_v31, at7_main_arg6]
  rw [at6_rectified, at6_main_v5, at6_main_v6, at6_main_v31, at6_main_arg5, at6_main_arg6]
  rw [at5_aggregate, at5_main_v5, at5_main_v6, at5_main_v31, at5_main_arg4, at5_main_arg5, at5_main_arg6]
  rw [at4_product, at4_main_v5, at4_main_v6, at4_main_v31, at4_main_arg4, at4_main_arg5, at4_main_arg6]
  rw [at3_sources, at3_targets, at3_norm, at3_arg0, at3_arg3, at3_arg4, at3_arg5, at3_arg6]
  rfl

/-- The idealized kernel's run, its result read: every weakly fair execution of @main terminates, nothing faulting,
    with the result array at the network's value of the arguments as launched and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v61)
        = gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_value m ρ c), (h c).2⟩) (run_result m ρ)

end Cert.GcnValue

end
-- ==== Proof.ReferenceOps.lean ====
/-
  The reference program's @main as a line of host operations, and its run.

  The reference's @main is a straight line of 100 host operations (three outlined functions — a select, the rectifier and
  the log-softmax — stand inline at their calls). It is listed here whole and as fourteen consecutive segments. Run from any
  memory with zero counters, every weakly fair execution terminates, nothing faulting, with every buffer at the fold of
  the operations over the launch contents; the fold over the whole line is the fold over the segments in turn.
-/
import proofs.«170599_j18631568130050_1_alg».proof.Proof.Gen.ReferenceIdeal
import Idealize.ShloMosaic.PureOps.Ideal
import Idealize.ShloMosaic.Lib.StableHlo.Run

set_option maxRecDepth 16384

noncomputable section

namespace Cert.GcnValue.Reference

open Cert.ReferenceIdeal Cert.ReferenceIdeal.Facts₀
open Idealize.ShloMosaic Idealize.ShloMosaic.TcCoe Idealize.SL.Sem Idealize.ShloMosaic.StableHlo

/-- Reads a stretch of host operations at one buffer: each operation's result at its own buffer is its function of its
    operands, any other buffer is left as it was; the casts an outlined function's typed references insert are
    identities. -/
local macro "read_stretch" : tactic =>
  `(tactic| (after_results_simp; (try simp only [TRef.toBuf, TRef.ofBuf, cast_eq]); (try rfl)))

variable {F : FTy → Type} [FloatOps F]

/-- The lists with their self-loops, the weights, the degrees, where they are positive and their inverse square roots (19 operations). -/
abbrev opsSelfLoops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S100000 32 0),
    binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S100000 ![] bcast_S_S100000 : (⟨S_, .f32⟩ : BufTy).Contents (Elt F) → (⟨S100000, .f32⟩ : BufTy).Contents (Elt F)),
    binary main_arg2 main_v7 main_v8 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32) ]

/-- The outlined select: the inverse square root where the degree is positive, 0 elsewhere (3 operations). -/
abbrev opsSelect : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select ]

/-- Each entry's symmetric weight (20 operations). -/
abbrev opsEdgeNorm : List (HloOp τ sig (Elt F)) :=
  [ nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v5 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v5 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v5 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v8 main_v23 (mulf : (⟨S1700000, .f32⟩ : BufTy).Contents (Elt F) → (⟨S1700000, .f32⟩ : BufTy).Contents (Elt F) → (⟨S1700000, .f32⟩ : BufTy).Contents (Elt F)),
    nullary main_c_4 (constantI S_ 32 0#32),
    unary main_c_4 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v15 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)) ]

/-- The first dense product. -/
abbrev opsDense1 : List (HloOp τ sig (Elt F)) :=
  [ binary main_arg0 main_arg3 main_v32 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)) ]

/-- The first aggregation (16 operations). -/
abbrev opsAggregate1 : List (HloOp τ sig (Elt F)) :=
  [ nullary main_c_6 (constantI S_ 32 0#32),
    unary main_c_6 main_v33 (broadcastInDim S1700000 ![] bcast_S_S1700000 : (⟨S_, .i32⟩ : BufTy).Contents (Elt F) → (⟨S1700000, .i32⟩ : BufTy).Contents (Elt F)),
    binary main_v5 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v35 (broadcastInDim S1700000 ![] bcast_S_S1700000 : (⟨S_, .i32⟩ : BufTy).Contents (Elt F) → (⟨S1700000, .i32⟩ : BufTy).Contents (Elt F)),
    binary main_v5 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v5 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v32 main_v38 main_v39 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v40 (broadcastInDim S1700000x1 ![0] bcast_S1700000_S1700000x1_0 : (⟨S1700000, .f32⟩ : BufTy).Contents (Elt F) → (⟨S1700000x1, .f32⟩ : BufTy).Contents (Elt F)),
    unary main_v40 main_v41 (broadcastInDim S1700000x128 ![0, 1] bcast_S1700000x1_S1700000x128_0_1 : (⟨S1700000x1, .f32⟩ : BufTy).Contents (Elt F) → (⟨S1700000x128, .f32⟩ : BufTy).Contents (Elt F)),
    binary main_v39 main_v41 main_v42 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v43 (broadcastInDim S100000x128 ![] bcast_S_S100000x128 : (⟨S_, .f32⟩ : BufTy).Contents (Elt F) → (⟨S100000x128, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- The first bias, the rectifier and the second dense product (7 operations). -/
abbrev opsLayer2 : List (HloOp τ sig (Elt F)) :=
  [ unary main_arg4 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v48) (TRef.of (T := ⟨S100000x128, .f32⟩) main_call1_v0) (TRef.of (T := ⟨S100000x128, .f32⟩) main_v49) maximumf,
    binary main_v49 main_arg5 main_v50 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)) ]

/-- The second aggregation (16 operations). -/
abbrev opsAggregate2 : List (HloOp τ sig (Elt F)) :=
  [ nullary main_c_9 (constantI S_ 32 0#32),
    unary main_c_9 main_v51 (broadcastInDim S1700000 ![] bcast_S_S1700000 : (⟨S_, .i32⟩ : BufTy).Contents (Elt F) → (⟨S1700000, .i32⟩ : BufTy).Contents (Elt F)),
    binary main_v5 main_v51 main_v52 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v53 (broadcastInDim S1700000 ![] bcast_S_S1700000 : (⟨S_, .i32⟩ : BufTy).Contents (Elt F) → (⟨S1700000, .i32⟩ : BufTy).Contents (Elt F)),
    binary main_v5 main_v53 main_v54 (addi : (⟨S1700000, .i32⟩ : BufTy).Contents (Elt F) → (⟨S1700000, .i32⟩ : BufTy).Contents (Elt F) → (⟨S1700000, .i32⟩ : BufTy).Contents (Elt F)),
    ternary main_v52 main_v54 main_v5 main_v55 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v55 main_v56 (broadcastInDim S1700000x1 ![0] bcast_S1700000_S1700000x1_0 : (⟨S1700000, .i32⟩ : BufTy).Contents (Elt F) → (⟨S1700000x1, .i32⟩ : BufTy).Contents (Elt F)),
    binary main_v50 main_v56 main_v57 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v31 main_v58 (broadcastInDim S1700000x1 ![0] bcast_S1700000_S1700000x1_0 : (⟨S1700000, .f32⟩ : BufTy).Contents (Elt F) → (⟨S1700000x1, .f32⟩ : BufTy).Contents (Elt F)),
    unary main_v58 main_v59 (broadcastInDim S1700000x40 ![0, 1] bcast_S1700000x1_S1700000x40_0_1 : (⟨S1700000x1, .f32⟩ : BufTy).Contents (Elt F) → (⟨S1700000x40, .f32⟩ : BufTy).Contents (Elt F)),
    binary main_v57 main_v59 main_v60 (mulf : (⟨S1700000x40, .f32⟩ : BufTy).Contents (Elt F) → (⟨S1700000x40, .f32⟩ : BufTy).Contents (Elt F) → (⟨S1700000x40, .f32⟩ : BufTy).Contents (Elt F)),
    nullary main_cst_11 (constant S_ .f32 0x00000000#32),
    unary main_cst_11 main_v61 (broadcastInDim S100000x40 ![] bcast_S_S100000x40 : (⟨S_, .f32⟩ : BufTy).Contents (Elt F) → (⟨S100000x40, .f32⟩ : BufTy).Contents (Elt F)),
    unary main_v6 main_v62 (broadcastInDim S1700000x1 ![0] bcast_S1700000_S1700000x1_0 : (⟨S1700000, .i32⟩ : BufTy).Contents (Elt F) → (⟨S1700000x1, .i32⟩ : BufTy).Contents (Elt F)),
    ternary main_v61 main_v62 main_v60 main_v63 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)) ]

/-- The second bias row added to every row (3 operations). -/
abbrev opsBias2 : List (HloOp τ sig (Elt F)) :=
  [ unary main_arg6 main_v64 (broadcastInDim S1x40 ![1] bcast_S40_S1x40_1 : (⟨S40, .f32⟩ : BufTy).Contents (Elt F) → (⟨S1x40, .f32⟩ : BufTy).Contents (Elt F)),
    unary main_v64 main_v65 (broadcastInDim S100000x40 ![0, 1] bcast_S1x40_S100000x40_0_1 : (⟨S1x40, .f32⟩ : BufTy).Contents (Elt F) → (⟨S100000x40, .f32⟩ : BufTy).Contents (Elt F)),
    binary main_v63 main_v65 main_v66 (addf : (⟨S100000x40, .f32⟩ : BufTy).Contents (Elt F) → (⟨S100000x40, .f32⟩ : BufTy).Contents (Elt F) → (⟨S100000x40, .f32⟩ : BufTy).Contents (Elt F)) ]

/-- The outlined log-softmax: each row's maximum, folded from minus infinity (2 operations). -/
abbrev opsRowMaxReduce : List (HloOp τ sig (Elt F)) :=
  [ TRef.nullary (TRef.of (T := ⟨S_, .f32⟩) main_call2_cst) (constant S_ .f32 0xFF800000#32),
    TRef.binary (TRef.of (T := ⟨S100000x40, .f32⟩) main_v66) (TRef.of (T := ⟨S_, .f32⟩) main_call2_cst) (TRef.of (T := ⟨S100000, .f32⟩) main_call2_v0) (fun x v => Host.reduce FloatOps.maximumf x v reducesTo_S100000x40_S100000_d1 h_S_) ]

/-- … joined once more with a vector of minus infinity (3 operations). -/
abbrev opsRowMaxJoin : List (HloOp τ sig (Elt F)) :=
  [ TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf ]

/-- … made a column, broadcast along the rows and subtracted (3 operations). -/
abbrev opsShift : List (HloOp τ sig (Elt F)) :=
  [ TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v66) (TRef.of (T := ⟨S100000x40, .f32⟩) main_call2_v4) (TRef.of (T := ⟨S100000x40, .f32⟩) main_call2_v5) subf ]

/-- … the exponentials of the differences, summed along each row from 0 (3 operations). -/
abbrev opsExpSum : List (HloOp τ sig (Elt F)) :=
  [ TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_) ]

/-- … the sums made a column and their logarithms taken (2 operations). -/
abbrev opsLogColumn : List (HloOp τ sig (Elt F)) :=
  [ TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log ]

/-- … broadcast along the rows and subtracted (2 operations). -/
abbrev opsSubtractLog : List (HloOp τ sig (Elt F)) :=
  [ TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v67) subf ]

/-- @main's 100 operations, in order. -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S100000 32 0),
    binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S100000 ![] bcast_S_S100000 : (⟨S_, .f32⟩ : BufTy).Contents (Elt F) → (⟨S100000, .f32⟩ : BufTy).Contents (Elt F)),
    binary main_arg2 main_v7 main_v8 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v5 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v5 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v5 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v8 main_v23 (mulf : (⟨S1700000, .f32⟩ : BufTy).Contents (Elt F) → (⟨S1700000, .f32⟩ : BufTy).Contents (Elt F) → (⟨S1700000, .f32⟩ : BufTy).Contents (Elt F)),
    nullary main_c_4 (constantI S_ 32 0#32),
    unary main_c_4 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v15 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)),
    binary main_arg0 main_arg3 main_v32 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    nullary main_c_6 (constantI S_ 32 0#32),
    unary main_c_6 main_v33 (broadcastInDim S1700000 ![] bcast_S_S1700000 : (⟨S_, .i32⟩ : BufTy).Contents (Elt F) → (⟨S1700000, .i32⟩ : BufTy).Contents (Elt F)),
    binary main_v5 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v35 (broadcastInDim S1700000 ![] bcast_S_S1700000 : (⟨S_, .i32⟩ : BufTy).Contents (Elt F) → (⟨S1700000, .i32⟩ : BufTy).Contents (Elt F)),
    binary main_v5 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v5 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v32 main_v38 main_v39 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v40 (broadcastInDim S1700000x1 ![0] bcast_S1700000_S1700000x1_0 : (⟨S1700000, .f32⟩ : BufTy).Contents (Elt F) → (⟨S1700000x1, .f32⟩ : BufTy).Contents (Elt F)),
    unary main_v40 main_v41 (broadcastInDim S1700000x128 ![0, 1] bcast_S1700000x1_S1700000x128_0_1 : (⟨S1700000x1, .f32⟩ : BufTy).Contents (Elt F) → (⟨S1700000x128, .f32⟩ : BufTy).Contents (Elt F)),
    binary main_v39 main_v41 main_v42 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v43 (broadcastInDim S100000x128 ![] bcast_S_S100000x128 : (⟨S_, .f32⟩ : BufTy).Contents (Elt F) → (⟨S100000x128, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg4 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v48) (TRef.of (T := ⟨S100000x128, .f32⟩) main_call1_v0) (TRef.of (T := ⟨S100000x128, .f32⟩) main_v49) maximumf,
    binary main_v49 main_arg5 main_v50 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    nullary main_c_9 (constantI S_ 32 0#32),
    unary main_c_9 main_v51 (broadcastInDim S1700000 ![] bcast_S_S1700000 : (⟨S_, .i32⟩ : BufTy).Contents (Elt F) → (⟨S1700000, .i32⟩ : BufTy).Contents (Elt F)),
    binary main_v5 main_v51 main_v52 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v53 (broadcastInDim S1700000 ![] bcast_S_S1700000 : (⟨S_, .i32⟩ : BufTy).Contents (Elt F) → (⟨S1700000, .i32⟩ : BufTy).Contents (Elt F)),
    binary main_v5 main_v53 main_v54 (addi : (⟨S1700000, .i32⟩ : BufTy).Contents (Elt F) → (⟨S1700000, .i32⟩ : BufTy).Contents (Elt F) → (⟨S1700000, .i32⟩ : BufTy).Contents (Elt F)),
    ternary main_v52 main_v54 main_v5 main_v55 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v55 main_v56 (broadcastInDim S1700000x1 ![0] bcast_S1700000_S1700000x1_0 : (⟨S1700000, .i32⟩ : BufTy).Contents (Elt F) → (⟨S1700000x1, .i32⟩ : BufTy).Contents (Elt F)),
    binary main_v50 main_v56 main_v57 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v31 main_v58 (broadcastInDim S1700000x1 ![0] bcast_S1700000_S1700000x1_0 : (⟨S1700000, .f32⟩ : BufTy).Contents (Elt F) → (⟨S1700000x1, .f32⟩ : BufTy).Contents (Elt F)),
    unary main_v58 main_v59 (broadcastInDim S1700000x40 ![0, 1] bcast_S1700000x1_S1700000x40_0_1 : (⟨S1700000x1, .f32⟩ : BufTy).Contents (Elt F) → (⟨S1700000x40, .f32⟩ : BufTy).Contents (Elt F)),
    binary main_v57 main_v59 main_v60 (mulf : (⟨S1700000x40, .f32⟩ : BufTy).Contents (Elt F) → (⟨S1700000x40, .f32⟩ : BufTy).Contents (Elt F) → (⟨S1700000x40, .f32⟩ : BufTy).Contents (Elt F)),
    nullary main_cst_11 (constant S_ .f32 0x00000000#32),
    unary main_cst_11 main_v61 (broadcastInDim S100000x40 ![] bcast_S_S100000x40 : (⟨S_, .f32⟩ : BufTy).Contents (Elt F) → (⟨S100000x40, .f32⟩ : BufTy).Contents (Elt F)),
    unary main_v6 main_v62 (broadcastInDim S1700000x1 ![0] bcast_S1700000_S1700000x1_0 : (⟨S1700000, .i32⟩ : BufTy).Contents (Elt F) → (⟨S1700000x1, .i32⟩ : BufTy).Contents (Elt F)),
    ternary main_v61 main_v62 main_v60 main_v63 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    unary main_arg6 main_v64 (broadcastInDim S1x40 ![1] bcast_S40_S1x40_1 : (⟨S40, .f32⟩ : BufTy).Contents (Elt F) → (⟨S1x40, .f32⟩ : BufTy).Contents (Elt F)),
    unary main_v64 main_v65 (broadcastInDim S100000x40 ![0, 1] bcast_S1x40_S100000x40_0_1 : (⟨S1x40, .f32⟩ : BufTy).Contents (Elt F) → (⟨S100000x40, .f32⟩ : BufTy).Contents (Elt F)),
    binary main_v63 main_v65 main_v66 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call2_cst) (constant S_ .f32 0xFF800000#32),
    TRef.binary (TRef.of (T := ⟨S100000x40, .f32⟩) main_v66) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v66) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v67) subf ]

/-- The line is its fourteen segments one after the other. -/
theorem ops_split : (ops : List (HloOp τ sig (Elt F))) = opsSelfLoops ++ (opsSelect ++ (opsEdgeNorm ++ (opsDense1 ++ (opsAggregate1 ++ (opsLayer2 ++ (opsAggregate2 ++ (opsBias2 ++ (opsRowMaxReduce ++ (opsRowMaxJoin ++ (opsShift ++ (opsExpSum ++ (opsLogColumn ++ (opsSubtractLog))))))))))))) := rfl

set_option maxHeartbeats 4000000 in
/-- @main is that line: its statements, the outlined functions' bodies inline, one after the other. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The contents after the whole line are the contents after the fourteen segments in turn. -/
theorem after_ops (W : Valuation τ sig (Elt F)) :
    after ops W = after opsSubtractLog (after opsLogColumn (after opsExpSum (after opsShift (after opsRowMaxJoin (after opsRowMaxReduce (after opsBias2 (after opsAggregate2 (after opsLayer2 (after opsAggregate1 (after opsDense1 (after opsEdgeNorm (after opsSelect (after opsSelfLoops (W)))))))))))))) :=
  (congrArg (fun l => after l W) ops_split).trans ((after_append opsSelfLoops _ _).trans ((after_append opsSelect _ _).trans ((after_append opsEdgeNorm _ _).trans ((after_append opsDense1 _ _).trans ((after_append opsAggregate1 _ _).trans ((after_append opsLayer2 _ _).trans ((after_append opsAggregate2 _ _).trans ((after_append opsBias2 _ _).trans ((after_append opsRowMaxReduce _ _).trans ((after_append opsRowMaxJoin _ _).trans ((after_append opsShift _ _).trans ((after_append opsExpSum _ _).trans (after_append opsLogColumn opsSubtractLog _)))))))))))))

/-- Every weakly fair execution of @main terminates, nothing faulting, with each buffer at the fold of the 100
    operations over the launch contents. -/
theorem run_line (m : (ℓ : Loc nD τ sig) → Buf (Elt Ideal) ℓ) (ρ : Dev nD → PrngReg) :
    θ_run defs (onTc (τ := τ) (main (F := Ideal))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

variable (W : Valuation τ sig (Elt Ideal))

/-! The line writes none of the seven arguments. -/
theorem ops_keeps_main_arg0 : (after (ops (F := Ideal)) W (Proc.devRef .tc main_arg0) : FVec Ideal S100000x256 .f32) = W (Proc.devRef .tc main_arg0) := by
  dsimp only [ops]
  read_stretch

theorem ops_keeps_main_arg1 : (after (ops (F := Ideal)) W (Proc.devRef .tc main_arg1) : IVec S2x1600000 32) = W (Proc.devRef .tc main_arg1) := by
  dsimp only [ops]
  read_stretch

theorem ops_keeps_main_arg2 : (after (ops (F := Ideal)) W (Proc.devRef .tc main_arg2) : FVec Ideal S1600000 .f32) = W (Proc.devRef .tc main_arg2) := by
  dsimp only [ops]
  read_stretch

theorem ops_keeps_main_arg3 : (after (ops (F := Ideal)) W (Proc.devRef .tc main_arg3) : FVec Ideal S256x128 .f32) = W (Proc.devRef .tc main_arg3) := by
  dsimp only [ops]
  read_stretch

theorem ops_keeps_main_arg4 : (after (ops (F := Ideal)) W (Proc.devRef .tc main_arg4) : FVec Ideal S128 .f32) = W (Proc.devRef .tc main_arg4) := by
  dsimp only [ops]
  read_stretch

theorem ops_keeps_main_arg5 : (after (ops (F := Ideal)) W (Proc.devRef .tc main_arg5) : FVec Ideal S128x40 .f32) = W (Proc.devRef .tc main_arg5) := by
  dsimp only [ops]
  read_stretch

theorem ops_keeps_main_arg6 : (after (ops (F := Ideal)) W (Proc.devRef .tc main_arg6) : FVec Ideal S40 .f32) = W (Proc.devRef .tc main_arg6) := by
  dsimp only [ops]
  read_stretch

end Cert.GcnValue.Reference

end
-- ==== Proof.ReferenceNorm.lean ====
/-
  The reference's edge normalisation, read back.

  The first three segments of the reference's line leave the list of sources and the list of targets (each with the
  self-loops appended) and the symmetric edge weights invSqrtDegree(source) · weight · invSqrtDegree(target), as the
  specification's functions of the edge table and the edge weights they found, and write none of the other arguments.
  Each segment is read from whatever contents it starts from; then the three are composed.
-/
import proofs.«170599_j18631568130050_1_alg».proof.Proof.ReferenceOps
import proofs.«170599_j18631568130050_1_alg».proof.Proof.Stages

set_option maxRecDepth 16384

noncomputable section

namespace Cert.GcnValue.Reference

open Cert.ReferenceIdeal Cert.ReferenceIdeal.Facts₀
open Idealize.ShloMosaic Idealize.ShloMosaic.TcCoe Idealize.SL.Sem Idealize.ShloMosaic.StableHlo

/-- Reads a stretch of host operations at one buffer: each operation's result at its own buffer is its function of its
    operands, any other buffer is left as it was; the casts an outlined function's typed references insert are
    identities. -/
local macro "read_stretch" : tactic =>
  `(tactic| (after_results_simp; (try simp only [TRef.toBuf, TRef.ofBuf, cast_eq]); (try rfl)))

variable (W : Valuation τ sig (Elt Ideal))

/-! ## The first list: the lists with their self-loops, the weights, the degrees -/

/-- The sources, the self-loops appended. -/
theorem selfloops_sources : (after (opsSelfLoops (F := Ideal)) W (Proc.devRef .tc main_v5) : IVec S1700000 32) = sources (W (Proc.devRef .tc main_arg1)) := by
  dsimp only [opsSelfLoops]
  read_stretch

/-- The targets, the self-loops appended. -/
theorem selfloops_targets : (after (opsSelfLoops (F := Ideal)) W (Proc.devRef .tc main_v6) : IVec S1700000 32) = targets (W (Proc.devRef .tc main_arg1)) := by
  dsimp only [opsSelfLoops]
  read_stretch

/-- The weights, a 1 appended per self-loop. -/
theorem selfloops_weights : (after (opsSelfLoops (F := Ideal)) W (Proc.devRef .tc main_v8) : FVec Ideal S1700000 .f32) = weights (W (Proc.devRef .tc main_arg2)) := by
  dsimp only [opsSelfLoops]
  read_stretch

/-- Where the degree is positive. -/
theorem degree_positive : (after (opsSelfLoops (F := Ideal)) W (Proc.devRef .tc main_v13) : IVec S100000 1) = cmpf .ogt (degree (W (Proc.devRef .tc main_arg1)) (W (Proc.devRef .tc main_arg2))) (broadcastInDim S100000 ![] Cert.ReferenceIdeal.Facts₀.bcast_S_S100000 (constant (F := Ideal) S_ .f32 0x00000000#32)) := by
  dsimp only [opsSelfLoops]
  read_stretch

/-- One over the square root of the degree. -/
theorem degree_rsqrt : (after (opsSelfLoops (F := Ideal)) W (Proc.devRef .tc main_v14) : FVec Ideal S100000 .f32) = Host.rsqrt (F := Ideal) (degree (W (Proc.devRef .tc main_arg1)) (W (Proc.devRef .tc main_arg2))) := by
  dsimp only [opsSelfLoops]
  read_stretch

/-- The scalar 0 the select falls back to. -/
theorem zero_scalar : (after (opsSelfLoops (F := Ideal)) W (Proc.devRef .tc main_cst_2) : FVec Ideal S_ .f32) = constant (F := Ideal) S_ .f32 0x00000000#32 := by
  dsimp only [opsSelfLoops]
  read_stretch

theorem selfloops_keeps_main_arg0 : (after (opsSelfLoops (F := Ideal)) W (Proc.devRef .tc main_arg0) : FVec Ideal S100000x256 .f32) = W (Proc.devRef .tc main_arg0) := by
  dsimp only [opsSelfLoops]
  read_stretch

theorem selfloops_keeps_main_arg3 : (after (opsSelfLoops (F := Ideal)) W (Proc.devRef .tc main_arg3) : FVec Ideal S256x128 .f32) = W (Proc.devRef .tc main_arg3) := by
  dsimp only [opsSelfLoops]
  read_stretch

theorem selfloops_keeps_main_arg4 : (after (opsSelfLoops (F := Ideal)) W (Proc.devRef .tc main_arg4) : FVec Ideal S128 .f32) = W (Proc.devRef .tc main_arg4) := by
  dsimp only [opsSelfLoops]
  read_stretch

theorem selfloops_keeps_main_arg5 : (after (opsSelfLoops (F := Ideal)) W (Proc.devRef .tc main_arg5) : FVec Ideal S128x40 .f32) = W (Proc.devRef .tc main_arg5) := by
  dsimp only [opsSelfLoops]
  read_stretch

theorem selfloops_keeps_main_arg6 : (after (opsSelfLoops (F := Ideal)) W (Proc.devRef .tc main_arg6) : FVec Ideal S40 .f32) = W (Proc.devRef .tc main_arg6) := by
  dsimp only [opsSelfLoops]
  read_stretch

/-! ## The outlined select: 1/sqrt(degree) where the degree is positive, 0 elsewhere -/

theorem select_reads : (after (opsSelect (F := Ideal)) W (Proc.devRef .tc main_v15) : FVec Ideal S100000 .f32) = select (W (Proc.devRef .tc main_v13)) (W (Proc.devRef .tc main_v14)) (broadcastInDim S100000 ![] Cert.ReferenceIdeal.Facts₀.bcast_S_S100000 (id (W (Proc.devRef .tc main_cst_2)))) := by
  dsimp only [opsSelect]
  read_stretch

theorem select_keeps_main_v5 : (after (opsSelect (F := Ideal)) W (Proc.devRef .tc main_v5) : IVec S1700000 32) = W (Proc.devRef .tc main_v5) := by
  dsimp only [opsSelect]
  read_stretch

theorem select_keeps_main_v6 : (after (opsSelect (F := Ideal)) W (Proc.devRef .tc main_v6) : IVec S1700000 32) = W (Proc.devRef .tc main_v6) := by
  dsimp only [opsSelect]
  read_stretch

theorem select_keeps_main_v8 : (after (opsSelect (F := Ideal)) W (Proc.devRef .tc main_v8) : FVec Ideal S1700000 .f32) = W (Proc.devRef .tc main_v8) := by
  dsimp only [opsSelect]
  read_stretch

theorem select_keeps_main_arg0 : (after (opsSelect (F := Ideal)) W (Proc.devRef .tc main_arg0) : FVec Ideal S100000x256 .f32) = W (Proc.devRef .tc main_arg0) := by
  dsimp only [opsSelect]
  read_stretch

theorem select_keeps_main_arg3 : (after (opsSelect (F := Ideal)) W (Proc.devRef .tc main_arg3) : FVec Ideal S256x128 .f32) = W (Proc.devRef .tc main_arg3) := by
  dsimp only [opsSelect]
  read_stretch

theorem select_keeps_main_arg4 : (after (opsSelect (F := Ideal)) W (Proc.devRef .tc main_arg4) : FVec Ideal S128 .f32) = W (Proc.devRef .tc main_arg4) := by
  dsimp only [opsSelect]
  read_stretch

theorem select_keeps_main_arg5 : (after (opsSelect (F := Ideal)) W (Proc.devRef .tc main_arg5) : FVec Ideal S128x40 .f32) = W (Proc.devRef .tc main_arg5) := by
  dsimp only [opsSelect]
  read_stretch

theorem select_keeps_main_arg6 : (after (opsSelect (F := Ideal)) W (Proc.devRef .tc main_arg6) : FVec Ideal S40 .f32) = W (Proc.devRef .tc main_arg6) := by
  dsimp only [opsSelect]
  read_stretch

/-! ## The last list: each entry's symmetric weight -/

theorem weights_read : (after (opsEdgeNorm (F := Ideal)) W (Proc.devRef .tc main_v31) : FVec Ideal S1700000 .f32) = (mulf (mulf (Host.gather Cert.ReferenceIdeal.gather_S100000_S1700000x1_S1700000_n_0_n_n_0_1_1 (W (Proc.devRef .tc main_v15) : FVec Ideal S100000 .f32) (wrapped (W (Proc.devRef .tc main_v5)))) (W (Proc.devRef .tc main_v8) : FVec Ideal S1700000 .f32))
        (Host.gather Cert.ReferenceIdeal.gather_S100000_S1700000x1_S1700000_n_0_n_n_0_1_1 (W (Proc.devRef .tc main_v15) : FVec Ideal S100000 .f32) (wrapped (W (Proc.devRef .tc main_v6)))) : FVec Ideal S1700000 .f32) := by
  dsimp only [opsEdgeNorm]
  read_stretch

theorem weights_keeps_main_v5 : (after (opsEdgeNorm (F := Ideal)) W (Proc.devRef .tc main_v5) : IVec S1700000 32) = W (Proc.devRef .tc main_v5) := by
  dsimp only [opsEdgeNorm]
  read_stretch

theorem weights_keeps_main_v6 : (after (opsEdgeNorm (F := Ideal)) W (Proc.devRef .tc main_v6) : IVec S1700000 32) = W (Proc.devRef .tc main_v6) := by
  dsimp only [opsEdgeNorm]
  read_stretch

theorem weights_keeps_main_arg0 : (after (opsEdgeNorm (F := Ideal)) W (Proc.devRef .tc main_arg0) : FVec Ideal S100000x256 .f32) = W (Proc.devRef .tc main_arg0) := by
  dsimp only [opsEdgeNorm]
  read_stretch

theorem weights_keeps_main_arg3 : (after (opsEdgeNorm (F := Ideal)) W (Proc.devRef .tc main_arg3) : FVec Ideal S256x128 .f32) = W (Proc.devRef .tc main_arg3) := by
  dsimp only [opsEdgeNorm]
  read_stretch

theorem weights_keeps_main_arg4 : (after (opsEdgeNorm (F := Ideal)) W (Proc.devRef .tc main_arg4) : FVec Ideal S128 .f32) = W (Proc.devRef .tc main_arg4) := by
  dsimp only [opsEdgeNorm]
  read_stretch

theorem weights_keeps_main_arg5 : (after (opsEdgeNorm (F := Ideal)) W (Proc.devRef .tc main_arg5) : FVec Ideal S128x40 .f32) = W (Proc.devRef .tc main_arg5) := by
  dsimp only [opsEdgeNorm]
  read_stretch

theorem weights_keeps_main_arg6 : (after (opsEdgeNorm (F := Ideal)) W (Proc.devRef .tc main_arg6) : FVec Ideal S40 .f32) = W (Proc.devRef .tc main_arg6) := by
  dsimp only [opsEdgeNorm]
  read_stretch

/-! ## The three lists in turn -/

/-- After the stretch the sources' buffer holds the edges' sources followed by the self-loops'. -/
theorem norm_sources : (after (opsEdgeNorm (F := Ideal)) (after (opsSelect (F := Ideal)) (after (opsSelfLoops (F := Ideal)) W)) (Proc.devRef .tc main_v5) : IVec S1700000 32) = sources (W (Proc.devRef .tc main_arg1)) := by
  rw [weights_keeps_main_v5, select_keeps_main_v5, selfloops_sources]

/-- … the targets' buffer the edges' targets followed by the self-loops'. -/
theorem norm_targets : (after (opsEdgeNorm (F := Ideal)) (after (opsSelect (F := Ideal)) (after (opsSelfLoops (F := Ideal)) W)) (Proc.devRef .tc main_v6) : IVec S1700000 32) = targets (W (Proc.devRef .tc main_arg1)) := by
  rw [weights_keeps_main_v6, select_keeps_main_v6, selfloops_targets]

/-- … and the norm's buffer each entry's symmetric weight, a function of the edge table and the edge weights alone. -/
theorem norm_weights : (after (opsEdgeNorm (F := Ideal)) (after (opsSelect (F := Ideal)) (after (opsSelfLoops (F := Ideal)) W)) (Proc.devRef .tc main_v31) : FVec Ideal S1700000 .f32) = edgeNorm (W (Proc.devRef .tc main_arg1)) (W (Proc.devRef .tc main_arg2)) := by
  rw [weights_read, select_reads, select_keeps_main_v5, select_keeps_main_v6, select_keeps_main_v8,
    degree_positive, degree_rsqrt, zero_scalar, selfloops_sources, selfloops_targets, selfloops_weights]
  rfl

/-! The stretch writes none of the node features, the weight matrices or the biases. -/
theorem norm_keeps_main_arg0 : (after (opsEdgeNorm (F := Ideal)) (after (opsSelect (F := Ideal)) (after (opsSelfLoops (F := Ideal)) W)) (Proc.devRef .tc main_arg0) : FVec Ideal S100000x256 .f32) = W (Proc.devRef .tc main_arg0) := by
  rw [weights_keeps_main_arg0, select_keeps_main_arg0, selfloops_keeps_main_arg0]

theorem norm_keeps_main_arg3 : (after (opsEdgeNorm (F := Ideal)) (after (opsSelect (F := Ideal)) (after (opsSelfLoops (F := Ideal)) W)) (Proc.devRef .tc main_arg3) : FVec Ideal S256x128 .f32) = W (Proc.devRef .tc main_arg3) := by
  rw [weights_keeps_main_arg3, select_keeps_main_arg3, selfloops_keeps_main_arg3]

theorem norm_keeps_main_arg4 : (after (opsEdgeNorm (F := Ideal)) (after (opsSelect (F := Ideal)) (after (opsSelfLoops (F := Ideal)) W)) (Proc.devRef .tc main_arg4) : FVec Ideal S128 .f32) = W (Proc.devRef .tc main_arg4) := by
  rw [weights_keeps_main_arg4, select_keeps_main_arg4, selfloops_keeps_main_arg4]

theorem norm_keeps_main_arg5 : (after (opsEdgeNorm (F := Ideal)) (after (opsSelect (F := Ideal)) (after (opsSelfLoops (F := Ideal)) W)) (Proc.devRef .tc main_arg5) : FVec Ideal S128x40 .f32) = W (Proc.devRef .tc main_arg5) := by
  rw [weights_keeps_main_arg5, select_keeps_main_arg5, selfloops_keeps_main_arg5]

theorem norm_keeps_main_arg6 : (after (opsEdgeNorm (F := Ideal)) (after (opsSelect (F := Ideal)) (after (opsSelfLoops (F := Ideal)) W)) (Proc.devRef .tc main_arg6) : FVec Ideal S40 .f32) = W (Proc.devRef .tc main_arg6) := by
  rw [weights_keeps_main_arg6, select_keeps_main_arg6, selfloops_keeps_main_arg6]

end Cert.GcnValue.Reference

end
-- ==== Proof.ReferenceLayer1.lean ====
/-
  The reference's first layer, read back.

  The first dense product, then the first aggregation: each segment, read from whatever contents it starts from, leaves
  the specification's function of those contents in its last buffer and does not write the buffers read later.
-/
import proofs.«170599_j18631568130050_1_alg».proof.Proof.ReferenceOps
import proofs.«170599_j18631568130050_1_alg».proof.Proof.Stages

set_option maxRecDepth 16384

noncomputable section

namespace Cert.GcnValue.Reference

open Cert.ReferenceIdeal Cert.ReferenceIdeal.Facts₀
open Idealize.ShloMosaic Idealize.ShloMosaic.TcCoe Idealize.SL.Sem Idealize.ShloMosaic.StableHlo

/-- Reads a stretch of host operations at one buffer: each operation's result at its own buffer is its function of its
    operands, any other buffer is left as it was; the casts an outlined function's typed references insert are
    identities. -/
local macro "read_stretch" : tactic =>
  `(tactic| (after_results_simp; (try simp only [TRef.toBuf, TRef.ofBuf, cast_eq]); (try rfl)))

variable (W : Valuation τ sig (Elt Ideal))

/-! ## The first dense product -/

theorem dense1_reads : (after (opsDense1 (F := Ideal)) W (Proc.devRef .tc main_v32) : FVec Ideal S100000x128 .f32) = dense1 (W (Proc.devRef .tc main_arg0)) (W (Proc.devRef .tc main_arg3)) := by
  dsimp only [opsDense1]
  read_stretch

theorem dense1_keeps_main_v5 : (after (opsDense1 (F := Ideal)) W (Proc.devRef .tc main_v5) : IVec S1700000 32) = W (Proc.devRef .tc main_v5) := by
  dsimp only [opsDense1]
  read_stretch

theorem dense1_keeps_main_v6 : (after (opsDense1 (F := Ideal)) W (Proc.devRef .tc main_v6) : IVec S1700000 32) = W (Proc.devRef .tc main_v6) := by
  dsimp only [opsDense1]
  read_stretch

theorem dense1_keeps_main_v31 : (after (opsDense1 (F := Ideal)) W (Proc.devRef .tc main_v31) : FVec Ideal S1700000 .f32) = W (Proc.devRef .tc main_v31) := by
  dsimp only [opsDense1]
  read_stretch

theorem dense1_keeps_main_arg4 : (after (opsDense1 (F := Ideal)) W (Proc.devRef .tc main_arg4) : FVec Ideal S128 .f32) = W (Proc.devRef .tc main_arg4) := by
  dsimp only [opsDense1]
  read_stretch

theorem dense1_keeps_main_arg5 : (after (opsDense1 (F := Ideal)) W (Proc.devRef .tc main_arg5) : FVec Ideal S128x40 .f32) = W (Proc.devRef .tc main_arg5) := by
  dsimp only [opsDense1]
  read_stretch

theorem dense1_keeps_main_arg6 : (after (opsDense1 (F := Ideal)) W (Proc.devRef .tc main_arg6) : FVec Ideal S40 .f32) = W (Proc.devRef .tc main_arg6) := by
  dsimp only [opsDense1]
  read_stretch

/-! ## The first aggregation -/

theorem aggregate1_reads : (after (opsAggregate1 (F := Ideal)) W (Proc.devRef .tc main_v45) : FVec Ideal S100000x128 .f32) = aggregate128 (W (Proc.devRef .tc main_v32)) (W (Proc.devRef .tc main_v5)) (W (Proc.devRef .tc main_v6)) (W (Proc.devRef .tc main_v31)) := by
  dsimp only [opsAggregate1]
  read_stretch

theorem aggregate1_keeps_main_v5 : (after (opsAggregate1 (F := Ideal)) W (Proc.devRef .tc main_v5) : IVec S1700000 32) = W (Proc.devRef .tc main_v5) := by
  dsimp only [opsAggregate1]
  read_stretch

theorem aggregate1_keeps_main_v6 : (after (opsAggregate1 (F := Ideal)) W (Proc.devRef .tc main_v6) : IVec S1700000 32) = W (Proc.devRef .tc main_v6) := by
  dsimp only [opsAggregate1]
  read_stretch

theorem aggregate1_keeps_main_v31 : (after (opsAggregate1 (F := Ideal)) W (Proc.devRef .tc main_v31) : FVec Ideal S1700000 .f32) = W (Proc.devRef .tc main_v31) := by
  dsimp only [opsAggregate1]
  read_stretch

theorem aggregate1_keeps_main_arg4 : (after (opsAggregate1 (F := Ideal)) W (Proc.devRef .tc main_arg4) : FVec Ideal S128 .f32) = W (Proc.devRef .tc main_arg4) := by
  dsimp only [opsAggregate1]
  read_stretch

theorem aggregate1_keeps_main_arg5 : (after (opsAggregate1 (F := Ideal)) W (Proc.devRef .tc main_arg5) : FVec Ideal S128x40 .f32) = W (Proc.devRef .tc main_arg5) := by
  dsimp only [opsAggregate1]
  read_stretch

theorem aggregate1_keeps_main_arg6 : (after (opsAggregate1 (F := Ideal)) W (Proc.devRef .tc main_arg6) : FVec Ideal S40 .f32) = W (Proc.devRef .tc main_arg6) := by
  dsimp only [opsAggregate1]
  read_stretch

end Cert.GcnValue.Reference

end
-- ==== Proof.ReferenceLayer2.lean ====
/-
  The reference's second layer, read back.

  The first bias, the rectifier and the second dense product, then the second aggregation: each segment, read from
  whatever contents it starts from, leaves the specification's function of those contents in its last buffer and does
  not write the buffers read later.
-/
import proofs.«170599_j18631568130050_1_alg».proof.Proof.ReferenceOps
import proofs.«170599_j18631568130050_1_alg».proof.Proof.Stages

set_option maxRecDepth 16384

noncomputable section

namespace Cert.GcnValue.Reference

open Cert.ReferenceIdeal Cert.ReferenceIdeal.Facts₀
open Idealize.ShloMosaic Idealize.ShloMosaic.TcCoe Idealize.SL.Sem Idealize.ShloMosaic.StableHlo

/-- Reads a stretch of host operations at one buffer: each operation's result at its own buffer is its function of its
    operands, any other buffer is left as it was; the casts an outlined function's typed references insert are
    identities. -/
local macro "read_stretch" : tactic =>
  `(tactic| (after_results_simp; (try simp only [TRef.toBuf, TRef.ofBuf, cast_eq]); (try rfl)))

variable (W : Valuation τ sig (Elt Ideal))

/-! ## The first bias, the rectifier, the second dense product -/

theorem layer2_reads : (after (opsLayer2 (F := Ideal)) W (Proc.devRef .tc main_v50) : FVec Ideal S100000x40 .f32) = dense2 (biasRelu (W (Proc.devRef .tc main_v45)) (W (Proc.devRef .tc main_arg4))) (W (Proc.devRef .tc main_arg5)) := by
  dsimp only [opsLayer2]
  read_stretch

theorem layer2_keeps_main_v5 : (after (opsLayer2 (F := Ideal)) W (Proc.devRef .tc main_v5) : IVec S1700000 32) = W (Proc.devRef .tc main_v5) := by
  dsimp only [opsLayer2]
  read_stretch

theorem layer2_keeps_main_v6 : (after (opsLayer2 (F := Ideal)) W (Proc.devRef .tc main_v6) : IVec S1700000 32) = W (Proc.devRef .tc main_v6) := by
  dsimp only [opsLayer2]
  read_stretch

theorem layer2_keeps_main_v31 : (after (opsLayer2 (F := Ideal)) W (Proc.devRef .tc main_v31) : FVec Ideal S1700000 .f32) = W (Proc.devRef .tc main_v31) := by
  dsimp only [opsLayer2]
  read_stretch

theorem layer2_keeps_main_arg6 : (after (opsLayer2 (F := Ideal)) W (Proc.devRef .tc main_arg6) : FVec Ideal S40 .f32) = W (Proc.devRef .tc main_arg6) := by
  dsimp only [opsLayer2]
  read_stretch

/-! ## The second aggregation -/

theorem aggregate2_reads : (after (opsAggregate2 (F := Ideal)) W (Proc.devRef .tc main_v63) : FVec Ideal S100000x40 .f32) = aggregate40 (W (Proc.devRef .tc main_v50)) (W (Proc.devRef .tc main_v5)) (W (Proc.devRef .tc main_v6)) (W (Proc.devRef .tc main_v31)) := by
  dsimp only [opsAggregate2]
  read_stretch

theorem aggregate2_keeps_main_arg6 : (after (opsAggregate2 (F := Ideal)) W (Proc.devRef .tc main_arg6) : FVec Ideal S40 .f32) = W (Proc.devRef .tc main_arg6) := by
  dsimp only [opsAggregate2]
  read_stretch

end Cert.GcnValue.Reference

end
-- ==== Proof.ReferenceOutput.lean ====
/-
  The reference's output stage, read back.

  The second bias, then the outlined log-softmax a few operations at a time: each row's maximum folded from minus
  infinity; joined once more with minus infinity; made a column, broadcast and subtracted; the exponentials of the
  differences summed along each row; the sums' logarithms as a column; broadcast and subtracted. Each piece, read from
  whatever contents it starts from, is the host's own operations applied to the one or two buffers it reads, and the
  pieces in between do not write the biased matrix or the differences that the later ones read again.
-/
import proofs.«170599_j18631568130050_1_alg».proof.Proof.ReferenceOps
import proofs.«170599_j18631568130050_1_alg».proof.Proof.Stages

set_option maxRecDepth 16384

noncomputable section

namespace Cert.GcnValue.Reference

open Cert.ReferenceIdeal Cert.ReferenceIdeal.Facts₀
open Idealize.ShloMosaic Idealize.ShloMosaic.TcCoe Idealize.SL.Sem Idealize.ShloMosaic.StableHlo

/-- Reads a stretch of host operations at one buffer: each operation's result at its own buffer is its function of its
    operands, any other buffer is left as it was; the casts an outlined function's typed references insert are
    identities. -/
local macro "read_stretch" : tactic =>
  `(tactic| (after_results_simp; (try simp only [TRef.toBuf, TRef.ofBuf, cast_eq]); (try rfl)))

variable (W : Valuation τ sig (Elt Ideal))

/-! ## The second bias -/

/-- The bias row added to every row. -/
theorem bias2_reads : (after (opsBias2 (F := Ideal)) W (Proc.devRef .tc main_v66) : FVec Ideal S100000x40 .f32) = biased40 (W (Proc.devRef .tc main_v63)) (W (Proc.devRef .tc main_arg6)) := by
  dsimp only [opsBias2]
  read_stretch

/-! ## The outlined log-softmax, a few operations at a time -/

/-- Each row's maximum, folded from minus infinity. -/
theorem rowmax_reduce : (after (opsRowMaxReduce (F := Ideal)) W (Proc.devRef .tc main_call2_v0) : FVec Ideal S100000 .f32) = Host.reduce (FloatOps.maximumf (F := Ideal)) (W (Proc.devRef .tc main_v66) : FVec Ideal S100000x40 .f32) (constant (F := Ideal) S_ .f32 0xFF800000#32) reducesTo_S100000x40_S100000_d1 h_S_ := by
  dsimp only [opsRowMaxReduce]
  read_stretch

theorem rowmax_reduce_keeps : (after (opsRowMaxReduce (F := Ideal)) W (Proc.devRef .tc main_v66) : FVec Ideal S100000x40 .f32) = W (Proc.devRef .tc main_v66) := by
  dsimp only [opsRowMaxReduce]
  read_stretch

/-- Joined once more with minus infinity. -/
theorem rowmax_join : (after (opsRowMaxJoin (F := Ideal)) W (Proc.devRef .tc main_call2_v2) : FVec Ideal S100000 .f32) = maximumf (broadcastInDim S100000 ![] bcast_S_S100000 (constant (F := Ideal) S_ .f32 0xFF800000#32)) (W (Proc.devRef .tc main_call2_v0) : FVec Ideal S100000 .f32) := by
  dsimp only [opsRowMaxJoin]
  read_stretch

theorem rowmax_join_keeps : (after (opsRowMaxJoin (F := Ideal)) W (Proc.devRef .tc main_v66) : FVec Ideal S100000x40 .f32) = W (Proc.devRef .tc main_v66) := by
  dsimp only [opsRowMaxJoin]
  read_stretch

/-- Each row minus the column of maxima. -/
theorem shift_reads : (after (opsShift (F := Ideal)) W (Proc.devRef .tc main_call2_v5) : FVec Ideal S100000x40 .f32) = (subf (W (Proc.devRef .tc main_v66) : FVec Ideal S100000x40 .f32) (broadcastInDim S100000x40 ![0, 1] bcast_S100000x1_S100000x40_0_1 (broadcastInDim S100000x1 ![0] bcast_S100000_S100000x1_0 (W (Proc.devRef .tc main_call2_v2) : FVec Ideal S100000 .f32))) : FVec Ideal S100000x40 .f32) := by
  dsimp only [opsShift]
  read_stretch

/-- The sum of each row's exponentials. -/
theorem expsum_reads : (after (opsExpSum (F := Ideal)) W (Proc.devRef .tc main_call2_v7) : FVec Ideal S100000 .f32) = Host.reduceAdd (F := Ideal) (Host.exp (F := Ideal) (W (Proc.devRef .tc main_call2_v5) : FVec Ideal S100000x40 .f32)) (constant (F := Ideal) S_ .f32 0x00000000#32) reducesTo_S100000x40_S100000_d1 h_S_ := by
  dsimp only [opsExpSum]
  read_stretch

theorem expsum_keeps : (after (opsExpSum (F := Ideal)) W (Proc.devRef .tc main_call2_v5) : FVec Ideal S100000x40 .f32) = W (Proc.devRef .tc main_call2_v5) := by
  dsimp only [opsExpSum]
  read_stretch

/-- The logarithms of the sums, as a column. -/
theorem logcolumn_reads : (after (opsLogColumn (F := Ideal)) W (Proc.devRef .tc main_call2_v9) : FVec Ideal S100000x1 .f32) = Host.log (F := Ideal) (φ := .f32) (broadcastInDim S100000x1 ![0] bcast_S100000_S100000x1_0 (W (Proc.devRef .tc main_call2_v7) : FVec Ideal S100000 .f32)) := by
  dsimp only [opsLogColumn]
  read_stretch

theorem logcolumn_keeps : (after (opsLogColumn (F := Ideal)) W (Proc.devRef .tc main_call2_v5) : FVec Ideal S100000x40 .f32) = W (Proc.devRef .tc main_call2_v5) := by
  dsimp only [opsLogColumn]
  read_stretch

/-- The differences minus the column of logarithms. -/
theorem subtractlog_reads : (after (opsSubtractLog (F := Ideal)) W (Proc.devRef .tc main_v67) : FVec Ideal S100000x40 .f32) = (subf (W (Proc.devRef .tc main_call2_v5) : FVec Ideal S100000x40 .f32) (broadcastInDim S100000x40 ![0, 1] bcast_S100000x1_S100000x40_0_1 (W (Proc.devRef .tc main_call2_v9) : FVec Ideal S100000x1 .f32)) : FVec Ideal S100000x40 .f32) := by
  dsimp only [opsSubtractLog]
  read_stretch

end Cert.GcnValue.Reference

end
-- ==== Proof.ReferenceRun.lean ====
/-
  The reference program, run and read back.

  Run from any memory, the reference's line of 100 host operations terminates with every buffer at the fold of the
  operations over the launch contents. The fold over the line is the fold over its fourteen segments in turn; each segment
  leaves one of the specification's functions of the contents it found and does not touch what the later segments read.
  Composed, the result array ends at the specification's 'gcn' of the seven arguments, which the line never writes.
-/
import proofs.«170599_j18631568130050_1_alg».proof.Proof.ReferenceOps
import proofs.«170599_j18631568130050_1_alg».proof.Proof.ReferenceNorm
import proofs.«170599_j18631568130050_1_alg».proof.Proof.ReferenceLayer1
import proofs.«170599_j18631568130050_1_alg».proof.Proof.ReferenceLayer2
import proofs.«170599_j18631568130050_1_alg».proof.Proof.ReferenceOutput
import proofs.«170599_j18631568130050_1_alg».proof.Proof.Stages

set_option maxRecDepth 16384

noncomputable section

namespace Cert.GcnValue.Reference

open Cert.ReferenceIdeal Cert.ReferenceIdeal.Facts₀
open Idealize.ShloMosaic Idealize.ShloMosaic.TcCoe Idealize.SL.Sem Idealize.ShloMosaic.StableHlo

/-- Reads a stretch of host operations at one buffer: each operation's result at its own buffer is its function of its
    operands, any other buffer is left as it was; the casts an outlined function's typed references insert are
    identities. -/
local macro "read_stretch" : tactic =>
  `(tactic| (after_results_simp; (try simp only [TRef.toBuf, TRef.ofBuf, cast_eq]); (try rfl)))

variable (W : Valuation τ sig (Elt Ideal))

/-- After the 100 operations the result buffer holds the network's value at the seven arguments' contents: the fourteen
    segments' readings composed, each value carried across the segments that do not write its buffer. -/
theorem result_value : (after (ops (F := Ideal)) W (Proc.devRef .tc main_v67) : FVec Ideal S100000x40 .f32)
    = gcn (W (Proc.devRef .tc main_arg0)) (W (Proc.devRef .tc main_arg1)) (W (Proc.devRef .tc main_arg2)) (W (Proc.devRef .tc main_arg3))
        (W (Proc.devRef .tc main_arg4)) (W (Proc.devRef .tc main_arg5)) (W (Proc.devRef .tc main_arg6)) := by
  rw [after_ops]
  rw [subtractlog_reads, logcolumn_reads, logcolumn_keeps, expsum_reads, expsum_keeps, shift_reads, rowmax_join, rowmax_join_keeps,
    rowmax_reduce, rowmax_reduce_keeps, bias2_reads, aggregate2_reads, aggregate2_keeps_main_arg6]
  rw [layer2_reads, layer2_keeps_main_v5, layer2_keeps_main_v6, layer2_keeps_main_v31, layer2_keeps_main_arg6]
  rw [aggregate1_reads, aggregate1_keeps_main_v5, aggregate1_keeps_main_v6, aggregate1_keeps_main_v31, aggregate1_keeps_main_arg4,
    aggregate1_keeps_main_arg5, aggregate1_keeps_main_arg6]
  rw [dense1_reads, dense1_keeps_main_v5, dense1_keeps_main_v6, dense1_keeps_main_v31, dense1_keeps_main_arg4, dense1_keeps_main_arg5,
    dense1_keeps_main_arg6]
  rw [norm_sources, norm_targets, norm_weights, norm_keeps_main_arg0, norm_keeps_main_arg3, norm_keeps_main_arg4, norm_keeps_main_arg5,
    norm_keeps_main_arg6]
  rfl

/-- Every weakly fair execution of the reference's @main terminates, nothing faulting, with the result array at the
    network's value of the seven argument arrays as launched, and those arrays unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v67)
        = gcn (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v67).trans (result_value (launchContents m c)),
      (h c main_arg0).trans (ops_keeps_main_arg0 (launchContents m c)),
      (h c main_arg1).trans (ops_keeps_main_arg1 (launchContents m c)),
      (h c main_arg2).trans (ops_keeps_main_arg2 (launchContents m c)),
      (h c main_arg3).trans (ops_keeps_main_arg3 (launchContents m c)),
      (h c main_arg4).trans (ops_keeps_main_arg4 (launchContents m c)),
      (h c main_arg5).trans (ops_keeps_main_arg5 (launchContents m c)),
      (h c main_arg6).trans (ops_keeps_main_arg6 (launchContents m c))⟩)
    (run_line m ρ)

end Cert.GcnValue.Reference

end
-- ==== Proof.lean ====
/-
  A two-layer graph convolution on N = 100000 nodes and E = 1600000 weighted edges: Pallas kernels for the dense parts
  against a plain jnp reference, equal at the extended reals.

  Both programs add one self-loop of weight 1 per node, take each node's degree (the sum of the weights of the entries
  that end at it), give every entry the symmetric weight 1/sqrt(deg source) · weight · 1/sqrt(deg target) (0 where a
  degree is not positive), and then, twice over, multiply the node rows by a weight matrix, gather every entry's source
  row, scale it by the entry's weight and add it up at the entry's target, and add a bias row; a rectifier follows the
  first layer and a row-wise log-softmax the second. All of that bookkeeping over the edges is the same host
  operations, in the same order, in both programs.

  They differ only in the four dense pieces. The reference computes each on the whole matrix: two dot_generals, an add
  and a maximum with 0, an add and the log-softmax (row maximum, difference, exponential, row sum, logarithm,
  difference). The kernel computes each in ten blocks of 10000 rows, the products with both factors first narrowed to
  bf16 and accumulated into zero. At the extended reals a change of float format is the identity and a zero accumulator
  adds nothing, and every one of these operations treats each row by itself (a row of a product needs that row of the
  left factor only; a row's maximum and its sum of exponentials need that row only), so a block of rows of the result is
  the result of the block of rows, and the ten blocks tile the matrix. No law that could fail at an infinity is used —
  the two sides are the same sums of the same products — so the precondition that the inputs are finite is never opened.

  The pieces: 'Stages' states the network as pure functions of whole arrays; the four 'Region…' modules show that each
  kernel leaves its whole-array function of the arrays it found; 'KernelHost…' and 'KernelValue' walk the buffer
  contents through @main's nine segments to the result; 'ReferenceRun' runs the reference's 100 host operations and reads
  them back to the same function. The idealization rewrote no operation, so 'preserves' has nothing to state, and the
  three frames are the generated frame certificates and the reference's run with its result dropped.
-/
import proofs.«170599_j18631568130050_1_alg».proof.Defs
import proofs.«170599_j18631568130050_1_alg».proof.Proof.Gen.Kernel
import proofs.«170599_j18631568130050_1_alg».proof.Proof.Gen.Kernel.Skeleton
import proofs.«170599_j18631568130050_1_alg».proof.Proof.Gen.Kernel.Launch
import proofs.«170599_j18631568130050_1_alg».proof.Proof.Gen.Kernel.Points
import proofs.«170599_j18631568130050_1_alg».proof.Proof.Gen.Kernel.Frame
import proofs.«170599_j18631568130050_1_alg».proof.Proof.Gen.KernelIdeal
import proofs.«170599_j18631568130050_1_alg».proof.Proof.Gen.KernelIdeal.Skeleton
import proofs.«170599_j18631568130050_1_alg».proof.Proof.Gen.KernelIdeal.Launch
import proofs.«170599_j18631568130050_1_alg».proof.Proof.Gen.KernelIdeal.Points
import proofs.«170599_j18631568130050_1_alg».proof.Proof.Gen.KernelIdeal.Frame
import proofs.«170599_j18631568130050_1_alg».proof.Proof.Gen.ReferenceIdeal
import proofs.«170599_j18631568130050_1_alg».proof.Proof.Gen.Pre_finite_inputs
import proofs.«170599_j18631568130050_1_alg».proof.Proof.KernelValue
import proofs.«170599_j18631568130050_1_alg».proof.Proof.ReferenceRun
import Idealize.ShloMosaic.Adequacy
import Idealize.ShloMosaic.Init

noncomputable section

namespace Cert.Proof

open Idealize.ShloMosaic Idealize.SL.Sem

/-- The kernel as printed runs to the end, nothing faulting, its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.GcnValue.Reference.run m ρ)

/-- The idealization rewrote no operation. -/
theorem preserves : Cert.preserves_Kernel_KernelIdeal := trivial

/-- From memories that agree on the seven arguments both programs end with the network's value of those arguments in
    their result arrays. -/
theorem algebraic : Cert.algebraic_KernelIdeal_ReferenceIdeal := by
  intro m ρ m' ρ' _ hagree
  refine ⟨_, Cert.GcnValue.run m ρ, ?_⟩
  refine (θ_run Cert.ReferenceIdeal.defs _ _).mono (fun _ h c => ⟨(h c).1.trans ?_, (h c).2⟩)
    (Cert.GcnValue.Reference.run m' ρ')
  obtain ⟨e0, e1, e2, e3, e4, e5, e6⟩ := hagree c
  rw [e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
